-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S6x32x128x128 : Shape := ⟨4, ![6, 32, 128, 128]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S6x32x128x128 : S_.BroadcastsInDim S6x32x128x128 (![] : Fin 0 → Fin S6x32x128x128.rank)
  reducesTo_S6x32x128x128_S_d0_1_2_3 : S6x32x128x128.ReducesTo [0, 1, 2, 3] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S6x32x128x128 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S6x32x128x128 .f32 := Host.absf main_arg1
  let main_cst_0 : FVec F S_ .f32 := constant S_ .f32 0x7F800000#32
  let main_v5 : FVec F S6x32x128x128 .f32 := broadcastInDim S6x32x128x128 ![] bcast_S_S6x32x128x128 main_cst_0
  let main_v6 : IVec S6x32x128x128 1 := cmpf .olt main_v4 main_v5
  let main_c_1 : IVec S_ 1 := constantI S_ 1 1#1
  let main_v7 : IVec S_ 1 := (fun x v => Host.reduce IntOp.andi x v reducesTo_S6x32x128x128_S_d0_1_2_3 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S6x32x128x128 : Shape := ⟨4, ![6, 32, 128, 128]⟩
abbrev S4096 : Shape := ⟨1, ![4096]⟩
abbrev S1x4096 : Shape := ⟨2, ![1, 4096]⟩
abbrev S256x4096 : Shape := ⟨2, ![256, 4096]⟩
abbrev S256x128 : Shape := ⟨2, ![256, 128]⟩
abbrev S1x1x128x128 : Shape := ⟨4, ![1, 1, 128, 128]⟩
abbrev S128x128 : Shape := ⟨2, ![128, 128]⟩
abbrev S1x128 : Shape := ⟨2, ![1, 128]⟩

abbrev nBuf : Space → Nat
  | .hbm => 6
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S6x32x128x128, .f32⟩
  | .hbm, ⟨2, _⟩ => ⟨S4096, .f32⟩
  | .hbm, ⟨3, _⟩ => ⟨S6x32x128x128, .f32⟩
  | .hbm, ⟨4, _⟩ => ⟨S1x4096, .f32⟩
  | .hbm, ⟨5, _⟩ => ⟨S4096x4096, .f32⟩
  | .local _ .vmem, ⟨0, _⟩ => ⟨S256x4096, .f32⟩
  | .local _ .vmem, ⟨1, _⟩ => ⟨S256x4096, .f32⟩
  | .local _ .vmem, ⟨2, _⟩ => ⟨S6x32x128x128, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x32x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S6x32x128x128_S6x32x128x128_0_1_3_2 : S6x32x128x128.Transposes [0, 1, 3, 2] S6x32x128x128
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  slices_S256x4096_o0_0_S256x128 : S256x4096.Slices ![0, 0] S256x128
  inb_S6x32x128x128_S1x1x128x128_0_0_0_0 : ∀ a, (![0, 0, 0, 0] : Fin 4 → Nat) a + S1x1x128x128.size a ≤ S6x32x128x128.size a
  h_S1x1x128x128 : 0 < S1x1x128x128.numel
  shapeCasts_S1x1x128x128_S128x128 : S1x1x128x128.ShapeCasts S128x128
  slices_S256x4096_o0_128_S256x128 : S256x4096.Slices ![0, 128] S256x128
  inb_S6x32x128x128_S1x1x128x128_1_1_0_0 : ∀ a, (![1, 1, 0, 0] : Fin 4 → Nat) a + S1x1x128x128.size a ≤ S6x32x128x128.size a
  slices_S256x4096_o0_256_S256x128 : S256x4096.Slices ![0, 256] S256x128
  inb_S6x32x128x128_S1x1x128x128_2_2_0_0 : ∀ a, (![2, 2, 0, 0] : Fin 4 → Nat) a + S1x1x128x128.size a ≤ S6x32x128x128.size a
  slices_S256x4096_o0_512_S256x128 : S256x4096.Slices ![0, 512] S256x128
  inb_S6x32x128x128_S1x1x128x128_3_4_0_0 : ∀ a, (![3, 4, 0, 0] : Fin 4 → Nat) a + S1x1x128x128.size a ≤ S6x32x128x128.size a
  slices_S256x4096_o0_1024_S256x128 : S256x4096.Slices ![0, 1024] S256x128
  inb_S6x32x128x128_S1x1x128x128_4_8_0_0 : ∀ a, (![4, 8, 0, 0] : Fin 4 → Nat) a + S1x1x128x128.size a ≤ S6x32x128x128.size a
  slices_S256x4096_o0_2048_S256x128 : S256x4096.Slices ![0, 2048] S256x128
  inb_S6x32x128x128_S1x1x128x128_5_16_0_0 : ∀ a, (![5, 16, 0, 0] : Fin 4 → Nat) a + S1x1x128x128.size a ≤ S6x32x128x128.size a
  inb_S1x4096_S1x128_0_0 : ∀ a, (![0, 0] : Fin 2 → Nat) a + S1x128.size a ≤ S1x4096.size a
  h_S1x128 : 0 < S1x128.numel
  shapeCasts_S1x128_S1x128 : S1x128.ShapeCasts S1x128
  broadcasts_S1x128_S256x128 : S1x128.Broadcasts S256x128
  inb_S256x4096_S256x128_0_0 : ∀ a, (![0, 0] : Fin 2 → Nat) a + S256x128.size a ≤ S256x4096.size a
  h_S256x128 : 0 < S256x128.numel
  inb_S6x32x128x128_S1x1x128x128_0_1_0_0 : ∀ a, (![0, 1, 0, 0] : Fin 4 → Nat) a + S1x1x128x128.size a ≤ S6x32x128x128.size a
  inb_S6x32x128x128_S1x1x128x128_1_0_0_0 : ∀ a, (![1, 0, 0, 0] : Fin 4 → Nat) a + S1x1x128x128.size a ≤ S6x32x128x128.size a
  slices_S256x4096_o0_384_S256x128 : S256x4096.Slices ![0, 384] S256x128
  inb_S6x32x128x128_S1x1x128x128_2_3_0_0 : ∀ a, (![2, 3, 0, 0] : Fin 4 → Nat) a + S1x1x128x128.size a ≤ S6x32x128x128.size a
  slices_S256x4096_o0_640_S256x128 : S256x4096.Slices ![0, 640] S256x128
  inb_S6x32x128x128_S1x1x128x128_3_5_0_0 : ∀ a, (![3, 5, 0, 0] : Fin 4 → Nat) a + S1x1x128x128.size a ≤ S6x32x128x128.size a
  slices_S256x4096_o0_1152_S256x128 : S256x4096.Slices ![0, 1152] S256x128
  inb_S6x32x128x128_S1x1x128x128_4_9_0_0 : ∀ a, (![4, 9, 0, 0] : Fin 4 → Nat) a + S1x1x128x128.size a ≤ S6x32x128x128.size a
  slices_S256x4096_o0_2176_S256x128 : S256x4096.Slices ![0, 2176] S256x128
  inb_S6x32x128x128_S1x1x128x128_5_17_0_0 : ∀ a, (![5, 17, 0, 0] : Fin 4 → Nat) a + S1x1x128x128.size a ≤ S6x32x128x128.size a
  inb_S1x4096_S1x128_0_128 : ∀ a, (![0, 128] : Fin 2 → Nat) a + S1x128.size a ≤ S1x4096.size a
  inb_S256x4096_S256x128_0_128 : ∀ a, (![0, 128] : Fin 2 → Nat) a + S256x128.size a ≤ S256x4096.size a
  inb_S6x32x128x128_S1x1x128x128_0_2_0_0 : ∀ a, (![0, 2, 0, 0] : Fin 4 → Nat) a + S1x1x128x128.size a ≤ S6x32x128x128.size a
  inb_S6x32x128x128_S1x1x128x128_1_3_0_0 : ∀ a, (![1, 3, 0, 0] : Fin 4 → Nat) a + S1x1x128x128.size a ≤ S6x32x128x128.size a
  inb_S6x32x128x128_S1x1x128x128_2_0_0_0 : ∀ a, (![2, 0, 0, 0] : Fin 4 → Nat) a + S1x1x128x128.size a ≤ S6x32x128x128.size a
  slices_S256x4096_o0_768_S256x128 : S256x4096.Slices ![0, 768] S256x128
  inb_S6x32x128x128_S1x1x128x128_3_6_0_0 : ∀ a, (![3, 6, 0, 0] : Fin 4 → Nat) a + S1x1x128x128.size a ≤ S6x32x128x128.size a
  slices_S256x4096_o0_1280_S256x128 : S256x4096.Slices ![0, 1280] S256x128
  inb_S6x32x128x128_S1x1x128x128_4_10_0_0 : ∀ a, (![4, 10, 0, 0] : Fin 4 → Nat) a + S1x1x128x128.size a ≤ S6x32x128x128.size a
  slices_S256x4096_o0_2304_S256x128 : S256x4096.Slices ![0, 2304] S256x128
  inb_S6x32x128x128_S1x1x128x128_5_18_0_0 : ∀ a, (![5, 18, 0, 0] : Fin 4 → Nat) a + S1x1x128x128.size a ≤ S6x32x128x128.size a
  inb_S1x4096_S1x128_0_256 : ∀ a, (![0, 256] : Fin 2 → Nat) a + S1x128.size a ≤ S1x4096.size a
  inb_S256x4096_S256x128_0_256 : ∀ a, (![0, 256] : Fin 2 → Nat) a + S256x128.size a ≤ S256x4096.size a
  inb_S6x32x128x128_S1x1x128x128_0_3_0_0 : ∀ a, (![0, 3, 0, 0] : Fin 4 → Nat) a + S1x1x128x128.size a ≤ S6x32x128x128.size a
  inb_S6x32x128x128_S1x1x128x128_1_2_0_0 : ∀ a, (![1, 2, 0, 0] : Fin 4 → Nat) a + S1x1x128x128.size a ≤ S6x32x128x128.size a
  inb_S6x32x128x128_S1x1x128x128_2_1_0_0 : ∀ a, (![2, 1, 0, 0] : Fin 4 → Nat) a + S1x1x128x128.size a ≤ S6x32x128x128.size a
  slices_S256x4096_o0_896_S256x128 : S256x4096.Slices ![0, 896] S256x128
  inb_S6x32x128x128_S1x1x128x128_3_7_0_0 : ∀ a, (![3, 7, 0, 0] : Fin 4 → Nat) a + S1x1x128x128.size a ≤ S6x32x128x128.size a
  slices_S256x4096_o0_1408_S256x128 : S256x4096.Slices ![0, 1408] S256x128
  inb_S6x32x128x128_S1x1x128x128_4_11_0_0 : ∀ a, (![4, 11, 0, 0] : Fin 4 → Nat) a + S1x1x128x128.size a ≤ S6x32x128x128.size a
  slices_S256x4096_o0_2432_S256x128 : S256x4096.Slices ![0, 2432] S256x128
  inb_S6x32x128x128_S1x1x128x128_5_19_0_0 : ∀ a, (![5, 19, 0, 0] : Fin 4 → Nat) a + S1x1x128x128.size a ≤ S6x32x128x128.size a
  inb_S1x4096_S1x128_0_384 : ∀ a, (![0, 384] : Fin 2 → Nat) a + S1x128.size a ≤ S1x4096.size a
  inb_S256x4096_S256x128_0_384 : ∀ a, (![0, 384] : Fin 2 → Nat) a + S256x128.size a ≤ S256x4096.size a
  inb_S6x32x128x128_S1x1x128x128_0_4_0_0 : ∀ a, (![0, 4, 0, 0] : Fin 4 → Nat) a + S1x1x128x128.size a ≤ S6x32x128x128.size a
  inb_S6x32x128x128_S1x1x128x128_1_5_0_0 : ∀ a, (![1, 5, 0, 0] : Fin 4 → Nat) a + S1x1x128x128.size a ≤ S6x32x128x128.size a
  inb_S6x32x128x128_S1x1x128x128_2_6_0_0 : ∀ a, (![2, 6, 0, 0] : Fin 4 → Nat) a + S1x1x128x128.size a ≤ S6x32x128x128.size a
  inb_S6x32x128x128_S1x1x128x128_3_0_0_0 : ∀ a, (![3, 0, 0, 0] : Fin 4 → Nat) a + S1x1x128x128.size a ≤ S6x32x128x128.size a
  slices_S256x4096_o0_1536_S256x128 : S256x4096.Slices ![0, 1536] S256x128
  inb_S6x32x128x128_S1x1x128x128_4_12_0_0 : ∀ a, (![4, 12, 0, 0] : Fin 4 → Nat) a + S1x1x128x128.size a ≤ S6x32x128x128.size a
  slices_S256x4096_o0_2560_S256x128 : S256x4096.Slices ![0, 2560] S256x128
  inb_S6x32x128x128_S1x1x128x128_5_20_0_0 : ∀ a, (![5, 20, 0, 0] : Fin 4 → Nat) a + S1x1x128x128.size a ≤ S6x32x128x128.size a
  inb_S1x4096_S1x128_0_512 : ∀ a, (![0, 512] : Fin 2 → Nat) a + S1x128.size a ≤ S1x4096.size a
  inb_S256x4096_S256x128_0_512 : ∀ a, (![0, 512] : Fin 2 → Nat) a + S256x128.size a ≤ S256x4096.size a
  inb_S6x32x128x128_S1x1x128x128_0_5_0_0 : ∀ a, (![0, 5, 0, 0] : Fin 4 → Nat) a + S1x1x128x128.size a ≤ S6x32x128x128.size a
  inb_S6x32x128x128_S1x1x128x128_1_4_0_0 : ∀ a, (![1, 4, 0, 0] : Fin 4 → Nat) a + S1x1x128x128.size a ≤ S6x32x128x128.size a
  inb_S6x32x128x128_S1x1x128x128_2_7_0_0 : ∀ a, (![2, 7, 0, 0] : Fin 4 → Nat) a + S1x1x128x128.size a ≤ S6x32x128x128.size a
  inb_S6x32x128x128_S1x1x128x128_3_1_0_0 : ∀ a, (![3, 1, 0, 0] : Fin 4 → Nat) a + S1x1x128x128.size a ≤ S6x32x128x128.size a
  slices_S256x4096_o0_1664_S256x128 : S256x4096.Slices ![0, 1664] S256x128
  inb_S6x32x128x128_S1x1x128x128_4_13_0_0 : ∀ a, (![4, 13, 0, 0] : Fin 4 → Nat) a + S1x1x128x128.size a ≤ S6x32x128x128.size a
  slices_S256x4096_o0_2688_S256x128 : S256x4096.Slices ![0, 2688] S256x128
  inb_S6x32x128x128_S1x1x128x128_5_21_0_0 : ∀ a, (![5, 21, 0, 0] : Fin 4 → Nat) a + S1x1x128x128.size a ≤ S6x32x128x128.size a
  inb_S1x4096_S1x128_0_640 : ∀ a, (![0, 640] : Fin 2 → Nat) a + S1x128.size a ≤ S1x4096.size a
  inb_S256x4096_S256x128_0_640 : ∀ a, (![0, 640] : Fin 2 → Nat) a + S256x128.size a ≤ S256x4096.size a
  inb_S6x32x128x128_S1x1x128x128_0_6_0_0 : ∀ a, (![0, 6, 0, 0] : Fin 4 → Nat) a + S1x1x128x128.size a ≤ S6x32x128x128.size a
  inb_S6x32x128x128_S1x1x128x128_1_7_0_0 : ∀ a, (![1, 7, 0, 0] : Fin 4 → Nat) a + S1x1x128x128.size a ≤ S6x32x128x128.size a
  inb_S6x32x128x128_S1x1x128x128_2_4_0_0 : ∀ a, (![2, 4, 0, 0] : Fin 4 → Nat) a + S1x1x128x128.size a ≤ S6x32x128x128.size a
  inb_S6x32x128x128_S1x1x128x128_3_2_0_0 : ∀ a, (![3, 2, 0, 0] : Fin 4 → Nat) a + S1x1x128x128.size a ≤ S6x32x128x128.size a
  slices_S256x4096_o0_1792_S256x128 : S256x4096.Slices ![0, 1792] S256x128
  inb_S6x32x128x128_S1x1x128x128_4_14_0_0 : ∀ a, (![4, 14, 0, 0] : Fin 4 → Nat) a + S1x1x128x128.size a ≤ S6x32x128x128.size a
  slices_S256x4096_o0_2816_S256x128 : S256x4096.Slices ![0, 2816] S256x128
  inb_S6x32x128x128_S1x1x128x128_5_22_0_0 : ∀ a, (![5, 22, 0, 0] : Fin 4 → Nat) a + S1x1x128x128.size a ≤ S6x32x128x128.size a
  inb_S1x4096_S1x128_0_768 : ∀ a, (![0, 768] : Fin 2 → Nat) a + S1x128.size a ≤ S1x4096.size a
  inb_S256x4096_S256x128_0_768 : ∀ a, (![0, 768] : Fin 2 → Nat) a + S256x128.size a ≤ S256x4096.size a
  inb_S6x32x128x128_S1x1x128x128_0_7_0_0 : ∀ a, (![0, 7, 0, 0] : Fin 4 → Nat) a + S1x1x128x128.size a ≤ S6x32x128x128.size a
  inb_S6x32x128x128_S1x1x128x128_1_6_0_0 : ∀ a, (![1, 6, 0, 0] : Fin 4 → Nat) a + S1x1x128x128.size a ≤ S6x32x128x128.size a
  inb_S6x32x128x128_S1x1x128x128_2_5_0_0 : ∀ a, (![2, 5, 0, 0] : Fin 4 → Nat) a + S1x1x128x128.size a ≤ S6x32x128x128.size a
  inb_S6x32x128x128_S1x1x128x128_3_3_0_0 : ∀ a, (![3, 3, 0, 0] : Fin 4 → Nat) a + S1x1x128x128.size a ≤ S6x32x128x128.size a
  slices_S256x4096_o0_1920_S256x128 : S256x4096.Slices ![0, 1920] S256x128
  inb_S6x32x128x128_S1x1x128x128_4_15_0_0 : ∀ a, (![4, 15, 0, 0] : Fin 4 → Nat) a + S1x1x128x128.size a ≤ S6x32x128x128.size a
  slices_S256x4096_o0_2944_S256x128 : S256x4096.Slices ![0, 2944] S256x128
  inb_S6x32x128x128_S1x1x128x128_5_23_0_0 : ∀ a, (![5, 23, 0, 0] : Fin 4 → Nat) a + S1x1x128x128.size a ≤ S6x32x128x128.size a
  inb_S1x4096_S1x128_0_896 : ∀ a, (![0, 896] : Fin 2 → Nat) a + S1x128.size a ≤ S1x4096.size a
  inb_S256x4096_S256x128_0_896 : ∀ a, (![0, 896] : Fin 2 → Nat) a + S256x128.size a ≤ S256x4096.size a
  inb_S6x32x128x128_S1x1x128x128_0_8_0_0 : ∀ a, (![0, 8, 0, 0] : Fin 4 → Nat) a + S1x1x128x128.size a ≤ S6x32x128x128.size a
  inb_S6x32x128x128_S1x1x128x128_1_9_0_0 : ∀ a, (![1, 9, 0, 0] : Fin 4 → Nat) a + S1x1x128x128.size a ≤ S6x32x128x128.size a
  inb_S6x32x128x128_S1x1x128x128_2_10_0_0 : ∀ a, (![2, 10, 0, 0] : Fin 4 → Nat) a + S1x1x128x128.size a ≤ S6x32x128x128.size a
  inb_S6x32x128x128_S1x1x128x128_3_12_0_0 : ∀ a, (![3, 12, 0, 0] : Fin 4 → Nat) a + S1x1x128x128.size a ≤ S6x32x128x128.size a
  inb_S6x32x128x128_S1x1x128x128_4_0_0_0 : ∀ a, (![4, 0, 0, 0] : Fin 4 → Nat) a + S1x1x128x128.size a ≤ S6x32x128x128.size a
  slices_S256x4096_o0_3072_S256x128 : S256x4096.Slices ![0, 3072] S256x128
  inb_S6x32x128x128_S1x1x128x128_5_24_0_0 : ∀ a, (![5, 24, 0, 0] : Fin 4 → Nat) a + S1x1x128x128.size a ≤ S6x32x128x128.size a
  inb_S1x4096_S1x128_0_1024 : ∀ a, (![0, 1024] : Fin 2 → Nat) a + S1x128.size a ≤ S1x4096.size a
  inb_S256x4096_S256x128_0_1024 : ∀ a, (![0, 1024] : Fin 2 → Nat) a + S256x128.size a ≤ S256x4096.size a
  inb_S6x32x128x128_S1x1x128x128_0_9_0_0 : ∀ a, (![0, 9, 0, 0] : Fin 4 → Nat) a + S1x1x128x128.size a ≤ S6x32x128x128.size a
  inb_S6x32x128x128_S1x1x128x128_1_8_0_0 : ∀ a, (![1, 8, 0, 0] : Fin 4 → Nat) a + S1x1x128x128.size a ≤ S6x32x128x128.size a
  inb_S6x32x128x128_S1x1x128x128_2_11_0_0 : ∀ a, (![2, 11, 0, 0] : Fin 4 → Nat) a + S1x1x128x128.size a ≤ S6x32x128x128.size a
  inb_S6x32x128x128_S1x1x128x128_3_13_0_0 : ∀ a, (![3, 13, 0, 0] : Fin 4 → Nat) a + S1x1x128x128.size a ≤ S6x32x128x128.size a
  inb_S6x32x128x128_S1x1x128x128_4_1_0_0 : ∀ a, (![4, 1, 0, 0] : Fin 4 → Nat) a + S1x1x128x128.size a ≤ S6x32x128x128.size a
  slices_S256x4096_o0_3200_S256x128 : S256x4096.Slices ![0, 3200] S256x128
  inb_S6x32x128x128_S1x1x128x128_5_25_0_0 : ∀ a, (![5, 25, 0, 0] : Fin 4 → Nat) a + S1x1x128x128.size a ≤ S6x32x128x128.size a
  inb_S1x4096_S1x128_0_1152 : ∀ a, (![0, 1152] : Fin 2 → Nat) a + S1x128.size a ≤ S1x4096.size a
  inb_S256x4096_S256x128_0_1152 : ∀ a, (![0, 1152] : Fin 2 → Nat) a + S256x128.size a ≤ S256x4096.size a
  inb_S6x32x128x128_S1x1x128x128_0_10_0_0 : ∀ a, (![0, 10, 0, 0] : Fin 4 → Nat) a + S1x1x128x128.size a ≤ S6x32x128x128.size a
  inb_S6x32x128x128_S1x1x128x128_1_11_0_0 : ∀ a, (![1, 11, 0, 0] : Fin 4 → Nat) a + S1x1x128x128.size a ≤ S6x32x128x128.size a
  inb_S6x32x128x128_S1x1x128x128_2_8_0_0 : ∀ a, (![2, 8, 0, 0] : Fin 4 → Nat) a + S1x1x128x128.size a ≤ S6x32x128x128.size a
  inb_S6x32x128x128_S1x1x128x128_3_14_0_0 : ∀ a, (![3, 14, 0, 0] : Fin 4 → Nat) a + S1x1x128x128.size a ≤ S6x32x128x128.size a
  inb_S6x32x128x128_S1x1x128x128_4_2_0_0 : ∀ a, (![4, 2, 0, 0] : Fin 4 → Nat) a + S1x1x128x128.size a ≤ S6x32x128x128.size a
  slices_S256x4096_o0_3328_S256x128 : S256x4096.Slices ![0, 3328] S256x128
  inb_S6x32x128x128_S1x1x128x128_5_26_0_0 : ∀ a, (![5, 26, 0, 0] : Fin 4 → Nat) a + S1x1x128x128.size a ≤ S6x32x128x128.size a
  inb_S1x4096_S1x128_0_1280 : ∀ a, (![0, 1280] : Fin 2 → Nat) a + S1x128.size a ≤ S1x4096.size a
  inb_S256x4096_S256x128_0_1280 : ∀ a, (![0, 1280] : Fin 2 → Nat) a + S256x128.size a ≤ S256x4096.size a
  inb_S6x32x128x128_S1x1x128x128_0_11_0_0 : ∀ a, (![0, 11, 0, 0] : Fin 4 → Nat) a + S1x1x128x128.size a ≤ S6x32x128x128.size a
  inb_S6x32x128x128_S1x1x128x128_1_10_0_0 : ∀ a, (![1, 10, 0, 0] : Fin 4 → Nat) a + S1x1x128x128.size a ≤ S6x32x128x128.size a
  inb_S6x32x128x128_S1x1x128x128_2_9_0_0 : ∀ a, (![2, 9, 0, 0] : Fin 4 → Nat) a + S1x1x128x128.size a ≤ S6x32x128x128.size a
  inb_S6x32x128x128_S1x1x128x128_3_15_0_0 : ∀ a, (![3, 15, 0, 0] : Fin 4 → Nat) a + S1x1x128x128.size a ≤ S6x32x128x128.size a
  inb_S6x32x128x128_S1x1x128x128_4_3_0_0 : ∀ a, (![4, 3, 0, 0] : Fin 4 → Nat) a + S1x1x128x128.size a ≤ S6x32x128x128.size a
  slices_S256x4096_o0_3456_S256x128 : S256x4096.Slices ![0, 3456] S256x128
  inb_S6x32x128x128_S1x1x128x128_5_27_0_0 : ∀ a, (![5, 27, 0, 0] : Fin 4 → Nat) a + S1x1x128x128.size a ≤ S6x32x128x128.size a
  inb_S1x4096_S1x128_0_1408 : ∀ a, (![0, 1408] : Fin 2 → Nat) a + S1x128.size a ≤ S1x4096.size a
  inb_S256x4096_S256x128_0_1408 : ∀ a, (![0, 1408] : Fin 2 → Nat) a + S256x128.size a ≤ S256x4096.size a
  inb_S6x32x128x128_S1x1x128x128_0_12_0_0 : ∀ a, (![0, 12, 0, 0] : Fin 4 → Nat) a + S1x1x128x128.size a ≤ S6x32x128x128.size a
  inb_S6x32x128x128_S1x1x128x128_1_13_0_0 : ∀ a, (![1, 13, 0, 0] : Fin 4 → Nat) a + S1x1x128x128.size a ≤ S6x32x128x128.size a
  inb_S6x32x128x128_S1x1x128x128_2_14_0_0 : ∀ a, (![2, 14, 0, 0] : Fin 4 → Nat) a + S1x1x128x128.size a ≤ S6x32x128x128.size a
  inb_S6x32x128x128_S1x1x128x128_3_8_0_0 : ∀ a, (![3, 8, 0, 0] : Fin 4 → Nat) a + S1x1x128x128.size a ≤ S6x32x128x128.size a
  inb_S6x32x128x128_S1x1x128x128_4_4_0_0 : ∀ a, (![4, 4, 0, 0] : Fin 4 → Nat) a + S1x1x128x128.size a ≤ S6x32x128x128.size a
  slices_S256x4096_o0_3584_S256x128 : S256x4096.Slices ![0, 3584] S256x128
  inb_S6x32x128x128_S1x1x128x128_5_28_0_0 : ∀ a, (![5, 28, 0, 0] : Fin 4 → Nat) a + S1x1x128x128.size a ≤ S6x32x128x128.size a
  inb_S1x4096_S1x128_0_1536 : ∀ a, (![0, 1536] : Fin 2 → Nat) a + S1x128.size a ≤ S1x4096.size a
  inb_S256x4096_S256x128_0_1536 : ∀ a, (![0, 1536] : Fin 2 → Nat) a + S256x128.size a ≤ S256x4096.size a
  inb_S6x32x128x128_S1x1x128x128_0_13_0_0 : ∀ a, (![0, 13, 0, 0] : Fin 4 → Nat) a + S1x1x128x128.size a ≤ S6x32x128x128.size a
  inb_S6x32x128x128_S1x1x128x128_1_12_0_0 : ∀ a, (![1, 12, 0, 0] : Fin 4 → Nat) a + S1x1x128x128.size a ≤ S6x32x128x128.size a
  inb_S6x32x128x128_S1x1x128x128_2_15_0_0 : ∀ a, (![2, 15, 0, 0] : Fin 4 → Nat) a + S1x1x128x128.size a ≤ S6x32x128x128.size a
  inb_S6x32x128x128_S1x1x128x128_3_9_0_0 : ∀ a, (![3, 9, 0, 0] : Fin 4 → Nat) a + S1x1x128x128.size a ≤ S6x32x128x128.size a
  inb_S6x32x128x128_S1x1x128x128_4_5_0_0 : ∀ a, (![4, 5, 0, 0] : Fin 4 → Nat) a + S1x1x128x128.size a ≤ S6x32x128x128.size a
  slices_S256x4096_o0_3712_S256x128 : S256x4096.Slices ![0, 3712] S256x128
  inb_S6x32x128x128_S1x1x128x128_5_29_0_0 : ∀ a, (![5, 29, 0, 0] : Fin 4 → Nat) a + S1x1x128x128.size a ≤ S6x32x128x128.size a
  inb_S1x4096_S1x128_0_1664 : ∀ a, (![0, 1664] : Fin 2 → Nat) a + S1x128.size a ≤ S1x4096.size a
  inb_S256x4096_S256x128_0_1664 : ∀ a, (![0, 1664] : Fin 2 → Nat) a + S256x128.size a ≤ S256x4096.size a
  inb_S6x32x128x128_S1x1x128x128_0_14_0_0 : ∀ a, (![0, 14, 0, 0] : Fin 4 → Nat) a + S1x1x128x128.size a ≤ S6x32x128x128.size a
  inb_S6x32x128x128_S1x1x128x128_1_15_0_0 : ∀ a, (![1, 15, 0, 0] : Fin 4 → Nat) a + S1x1x128x128.size a ≤ S6x32x128x128.size a
  inb_S6x32x128x128_S1x1x128x128_2_12_0_0 : ∀ a, (![2, 12, 0, 0] : Fin 4 → Nat) a + S1x1x128x128.size a ≤ S6x32x128x128.size a
  inb_S6x32x128x128_S1x1x128x128_3_10_0_0 : ∀ a, (![3, 10, 0, 0] : Fin 4 → Nat) a + S1x1x128x128.size a ≤ S6x32x128x128.size a
  inb_S6x32x128x128_S1x1x128x128_4_6_0_0 : ∀ a, (![4, 6, 0, 0] : Fin 4 → Nat) a + S1x1x128x128.size a ≤ S6x32x128x128.size a
  slices_S256x4096_o0_3840_S256x128 : S256x4096.Slices ![0, 3840] S256x128
  inb_S6x32x128x128_S1x1x128x128_5_30_0_0 : ∀ a, (![5, 30, 0, 0] : Fin 4 → Nat) a + S1x1x128x128.size a ≤ S6x32x128x128.size a
  inb_S1x4096_S1x128_0_1792 : ∀ a, (![0, 1792] : Fin 2 → Nat) a + S1x128.size a ≤ S1x4096.size a
  inb_S256x4096_S256x128_0_1792 : ∀ a, (![0, 1792] : Fin 2 → Nat) a + S256x128.size a ≤ S256x4096.size a
  inb_S6x32x128x128_S1x1x128x128_0_15_0_0 : ∀ a, (![0, 15, 0, 0] : Fin 4 → Nat) a + S1x1x128x128.size a ≤ S6x32x128x128.size a
  inb_S6x32x128x128_S1x1x128x128_1_14_0_0 : ∀ a, (![1, 14, 0, 0] : Fin 4 → Nat) a + S1x1x128x128.size a ≤ S6x32x128x128.size a
  inb_S6x32x128x128_S1x1x128x128_2_13_0_0 : ∀ a, (![2, 13, 0, 0] : Fin 4 → Nat) a + S1x1x128x128.size a ≤ S6x32x128x128.size a
  inb_S6x32x128x128_S1x1x128x128_3_11_0_0 : ∀ a, (![3, 11, 0, 0] : Fin 4 → Nat) a + S1x1x128x128.size a ≤ S6x32x128x128.size a
  inb_S6x32x128x128_S1x1x128x128_4_7_0_0 : ∀ a, (![4, 7, 0, 0] : Fin 4 → Nat) a + S1x1x128x128.size a ≤ S6x32x128x128.size a
  slices_S256x4096_o0_3968_S256x128 : S256x4096.Slices ![0, 3968] S256x128
  inb_S6x32x128x128_S1x1x128x128_5_31_0_0 : ∀ a, (![5, 31, 0, 0] : Fin 4 → Nat) a + S1x1x128x128.size a ≤ S6x32x128x128.size a
  inb_S1x4096_S1x128_0_1920 : ∀ a, (![0, 1920] : Fin 2 → Nat) a + S1x128.size a ≤ S1x4096.size a
  inb_S256x4096_S256x128_0_1920 : ∀ a, (![0, 1920] : Fin 2 → Nat) a + S256x128.size a ≤ S256x4096.size a
  inb_S6x32x128x128_S1x1x128x128_0_16_0_0 : ∀ a, (![0, 16, 0, 0] : Fin 4 → Nat) a + S1x1x128x128.size a ≤ S6x32x128x128.size a
  inb_S6x32x128x128_S1x1x128x128_1_17_0_0 : ∀ a, (![1, 17, 0, 0] : Fin 4 → Nat) a + S1x1x128x128.size a ≤ S6x32x128x128.size a
  inb_S6x32x128x128_S1x1x128x128_2_18_0_0 : ∀ a, (![2, 18, 0, 0] : Fin 4 → Nat) a + S1x1x128x128.size a ≤ S6x32x128x128.size a
  inb_S6x32x128x128_S1x1x128x128_3_20_0_0 : ∀ a, (![3, 20, 0, 0] : Fin 4 → Nat) a + S1x1x128x128.size a ≤ S6x32x128x128.size a
  inb_S6x32x128x128_S1x1x128x128_4_24_0_0 : ∀ a, (![4, 24, 0, 0] : Fin 4 → Nat) a + S1x1x128x128.size a ≤ S6x32x128x128.size a
  inb_S6x32x128x128_S1x1x128x128_5_0_0_0 : ∀ a, (![5, 0, 0, 0] : Fin 4 → Nat) a + S1x1x128x128.size a ≤ S6x32x128x128.size a
  inb_S1x4096_S1x128_0_2048 : ∀ a, (![0, 2048] : Fin 2 → Nat) a + S1x128.size a ≤ S1x4096.size a
  inb_S256x4096_S256x128_0_2048 : ∀ a, (![0, 2048] : Fin 2 → Nat) a + S256x128.size a ≤ S256x4096.size a
  inb_S6x32x128x128_S1x1x128x128_0_17_0_0 : ∀ a, (![0, 17, 0, 0] : Fin 4 → Nat) a + S1x1x128x128.size a ≤ S6x32x128x128.size a
  inb_S6x32x128x128_S1x1x128x128_1_16_0_0 : ∀ a, (![1, 16, 0, 0] : Fin 4 → Nat) a + S1x1x128x128.size a ≤ S6x32x128x128.size a
  inb_S6x32x128x128_S1x1x128x128_2_19_0_0 : ∀ a, (![2, 19, 0, 0] : Fin 4 → Nat) a + S1x1x128x128.size a ≤ S6x32x128x128.size a
  inb_S6x32x128x128_S1x1x128x128_3_21_0_0 : ∀ a, (![3, 21, 0, 0] : Fin 4 → Nat) a + S1x1x128x128.size a ≤ S6x32x128x128.size a
  inb_S6x32x128x128_S1x1x128x128_4_25_0_0 : ∀ a, (![4, 25, 0, 0] : Fin 4 → Nat) a + S1x1x128x128.size a ≤ S6x32x128x128.size a
  inb_S6x32x128x128_S1x1x128x128_5_1_0_0 : ∀ a, (![5, 1, 0, 0] : Fin 4 → Nat) a + S1x1x128x128.size a ≤ S6x32x128x128.size a
  inb_S1x4096_S1x128_0_2176 : ∀ a, (![0, 2176] : Fin 2 → Nat) a + S1x128.size a ≤ S1x4096.size a
  inb_S256x4096_S256x128_0_2176 : ∀ a, (![0, 2176] : Fin 2 → Nat) a + S256x128.size a ≤ S256x4096.size a
  inb_S6x32x128x128_S1x1x128x128_0_18_0_0 : ∀ a, (![0, 18, 0, 0] : Fin 4 → Nat) a + S1x1x128x128.size a ≤ S6x32x128x128.size a
  inb_S6x32x128x128_S1x1x128x128_1_19_0_0 : ∀ a, (![1, 19, 0, 0] : Fin 4 → Nat) a + S1x1x128x128.size a ≤ S6x32x128x128.size a
  inb_S6x32x128x128_S1x1x128x128_2_16_0_0 : ∀ a, (![2, 16, 0, 0] : Fin 4 → Nat) a + S1x1x128x128.size a ≤ S6x32x128x128.size a
  inb_S6x32x128x128_S1x1x128x128_3_22_0_0 : ∀ a, (![3, 22, 0, 0] : Fin 4 → Nat) a + S1x1x128x128.size a ≤ S6x32x128x128.size a
  inb_S6x32x128x128_S1x1x128x128_4_26_0_0 : ∀ a, (![4, 26, 0, 0] : Fin 4 → Nat) a + S1x1x128x128.size a ≤ S6x32x128x128.size a
  inb_S6x32x128x128_S1x1x128x128_5_2_0_0 : ∀ a, (![5, 2, 0, 0] : Fin 4 → Nat) a + S1x1x128x128.size a ≤ S6x32x128x128.size a
  inb_S1x4096_S1x128_0_2304 : ∀ a, (![0, 2304] : Fin 2 → Nat) a + S1x128.size a ≤ S1x4096.size a
  inb_S256x4096_S256x128_0_2304 : ∀ a, (![0, 2304] : Fin 2 → Nat) a + S256x128.size a ≤ S256x4096.size a
  inb_S6x32x128x128_S1x1x128x128_0_19_0_0 : ∀ a, (![0, 19, 0, 0] : Fin 4 → Nat) a + S1x1x128x128.size a ≤ S6x32x128x128.size a
  inb_S6x32x128x128_S1x1x128x128_1_18_0_0 : ∀ a, (![1, 18, 0, 0] : Fin 4 → Nat) a + S1x1x128x128.size a ≤ S6x32x128x128.size a
  inb_S6x32x128x128_S1x1x128x128_2_17_0_0 : ∀ a, (![2, 17, 0, 0] : Fin 4 → Nat) a + S1x1x128x128.size a ≤ S6x32x128x128.size a
  inb_S6x32x128x128_S1x1x128x128_3_23_0_0 : ∀ a, (![3, 23, 0, 0] : Fin 4 → Nat) a + S1x1x128x128.size a ≤ S6x32x128x128.size a
  inb_S6x32x128x128_S1x1x128x128_4_27_0_0 : ∀ a, (![4, 27, 0, 0] : Fin 4 → Nat) a + S1x1x128x128.size a ≤ S6x32x128x128.size a
  inb_S6x32x128x128_S1x1x128x128_5_3_0_0 : ∀ a, (![5, 3, 0, 0] : Fin 4 → Nat) a + S1x1x128x128.size a ≤ S6x32x128x128.size a
  inb_S1x4096_S1x128_0_2432 : ∀ a, (![0, 2432] : Fin 2 → Nat) a + S1x128.size a ≤ S1x4096.size a
  inb_S256x4096_S256x128_0_2432 : ∀ a, (![0, 2432] : Fin 2 → Nat) a + S256x128.size a ≤ S256x4096.size a
  inb_S6x32x128x128_S1x1x128x128_0_20_0_0 : ∀ a, (![0, 20, 0, 0] : Fin 4 → Nat) a + S1x1x128x128.size a ≤ S6x32x128x128.size a
  inb_S6x32x128x128_S1x1x128x128_1_21_0_0 : ∀ a, (![1, 21, 0, 0] : Fin 4 → Nat) a + S1x1x128x128.size a ≤ S6x32x128x128.size a
  inb_S6x32x128x128_S1x1x128x128_2_22_0_0 : ∀ a, (![2, 22, 0, 0] : Fin 4 → Nat) a + S1x1x128x128.size a ≤ S6x32x128x128.size a
  inb_S6x32x128x128_S1x1x128x128_3_16_0_0 : ∀ a, (![3, 16, 0, 0] : Fin 4 → Nat) a + S1x1x128x128.size a ≤ S6x32x128x128.size a
  inb_S6x32x128x128_S1x1x128x128_4_28_0_0 : ∀ a, (![4, 28, 0, 0] : Fin 4 → Nat) a + S1x1x128x128.size a ≤ S6x32x128x128.size a
  inb_S6x32x128x128_S1x1x128x128_5_4_0_0 : ∀ a, (![5, 4, 0, 0] : Fin 4 → Nat) a + S1x1x128x128.size a ≤ S6x32x128x128.size a
  inb_S1x4096_S1x128_0_2560 : ∀ a, (![0, 2560] : Fin 2 → Nat) a + S1x128.size a ≤ S1x4096.size a
  inb_S256x4096_S256x128_0_2560 : ∀ a, (![0, 2560] : Fin 2 → Nat) a + S256x128.size a ≤ S256x4096.size a
  inb_S6x32x128x128_S1x1x128x128_0_21_0_0 : ∀ a, (![0, 21, 0, 0] : Fin 4 → Nat) a + S1x1x128x128.size a ≤ S6x32x128x128.size a
  inb_S6x32x128x128_S1x1x128x128_1_20_0_0 : ∀ a, (![1, 20, 0, 0] : Fin 4 → Nat) a + S1x1x128x128.size a ≤ S6x32x128x128.size a
  inb_S6x32x128x128_S1x1x128x128_2_23_0_0 : ∀ a, (![2, 23, 0, 0] : Fin 4 → Nat) a + S1x1x128x128.size a ≤ S6x32x128x128.size a
  inb_S6x32x128x128_S1x1x128x128_3_17_0_0 : ∀ a, (![3, 17, 0, 0] : Fin 4 → Nat) a + S1x1x128x128.size a ≤ S6x32x128x128.size a
  inb_S6x32x128x128_S1x1x128x128_4_29_0_0 : ∀ a, (![4, 29, 0, 0] : Fin 4 → Nat) a + S1x1x128x128.size a ≤ S6x32x128x128.size a
  inb_S6x32x128x128_S1x1x128x128_5_5_0_0 : ∀ a, (![5, 5, 0, 0] : Fin 4 → Nat) a + S1x1x128x128.size a ≤ S6x32x128x128.size a
  inb_S1x4096_S1x128_0_2688 : ∀ a, (![0, 2688] : Fin 2 → Nat) a + S1x128.size a ≤ S1x4096.size a
  inb_S256x4096_S256x128_0_2688 : ∀ a, (![0, 2688] : Fin 2 → Nat) a + S256x128.size a ≤ S256x4096.size a
  inb_S6x32x128x128_S1x1x128x128_0_22_0_0 : ∀ a, (![0, 22, 0, 0] : Fin 4 → Nat) a + S1x1x128x128.size a ≤ S6x32x128x128.size a
  inb_S6x32x128x128_S1x1x128x128_1_23_0_0 : ∀ a, (![1, 23, 0, 0] : Fin 4 → Nat) a + S1x1x128x128.size a ≤ S6x32x128x128.size a
  inb_S6x32x128x128_S1x1x128x128_2_20_0_0 : ∀ a, (![2, 20, 0, 0] : Fin 4 → Nat) a + S1x1x128x128.size a ≤ S6x32x128x128.size a
  inb_S6x32x128x128_S1x1x128x128_3_18_0_0 : ∀ a, (![3, 18, 0, 0] : Fin 4 → Nat) a + S1x1x128x128.size a ≤ S6x32x128x128.size a
  inb_S6x32x128x128_S1x1x128x128_4_30_0_0 : ∀ a, (![4, 30, 0, 0] : Fin 4 → Nat) a + S1x1x128x128.size a ≤ S6x32x128x128.size a
  inb_S6x32x128x128_S1x1x128x128_5_6_0_0 : ∀ a, (![5, 6, 0, 0] : Fin 4 → Nat) a + S1x1x128x128.size a ≤ S6x32x128x128.size a
  inb_S1x4096_S1x128_0_2816 : ∀ a, (![0, 2816] : Fin 2 → Nat) a + S1x128.size a ≤ S1x4096.size a
  inb_S256x4096_S256x128_0_2816 : ∀ a, (![0, 2816] : Fin 2 → Nat) a + S256x128.size a ≤ S256x4096.size a
  inb_S6x32x128x128_S1x1x128x128_0_23_0_0 : ∀ a, (![0, 23, 0, 0] : Fin 4 → Nat) a + S1x1x128x128.size a ≤ S6x32x128x128.size a
  inb_S6x32x128x128_S1x1x128x128_1_22_0_0 : ∀ a, (![1, 22, 0, 0] : Fin 4 → Nat) a + S1x1x128x128.size a ≤ S6x32x128x128.size a
  inb_S6x32x128x128_S1x1x128x128_2_21_0_0 : ∀ a, (![2, 21, 0, 0] : Fin 4 → Nat) a + S1x1x128x128.size a ≤ S6x32x128x128.size a
  inb_S6x32x128x128_S1x1x128x128_3_19_0_0 : ∀ a, (![3, 19, 0, 0] : Fin 4 → Nat) a + S1x1x128x128.size a ≤ S6x32x128x128.size a
  inb_S6x32x128x128_S1x1x128x128_4_31_0_0 : ∀ a, (![4, 31, 0, 0] : Fin 4 → Nat) a + S1x1x128x128.size a ≤ S6x32x128x128.size a
  inb_S6x32x128x128_S1x1x128x128_5_7_0_0 : ∀ a, (![5, 7, 0, 0] : Fin 4 → Nat) a + S1x1x128x128.size a ≤ S6x32x128x128.size a
  inb_S1x4096_S1x128_0_2944 : ∀ a, (![0, 2944] : Fin 2 → Nat) a + S1x128.size a ≤ S1x4096.size a
  inb_S256x4096_S256x128_0_2944 : ∀ a, (![0, 2944] : Fin 2 → Nat) a + S256x128.size a ≤ S256x4096.size a
  inb_S6x32x128x128_S1x1x128x128_0_24_0_0 : ∀ a, (![0, 24, 0, 0] : Fin 4 → Nat) a + S1x1x128x128.size a ≤ S6x32x128x128.size a
  inb_S6x32x128x128_S1x1x128x128_1_25_0_0 : ∀ a, (![1, 25, 0, 0] : Fin 4 → Nat) a + S1x1x128x128.size a ≤ S6x32x128x128.size a
  inb_S6x32x128x128_S1x1x128x128_2_26_0_0 : ∀ a, (![2, 26, 0, 0] : Fin 4 → Nat) a + S1x1x128x128.size a ≤ S6x32x128x128.size a
  inb_S6x32x128x128_S1x1x128x128_3_28_0_0 : ∀ a, (![3, 28, 0, 0] : Fin 4 → Nat) a + S1x1x128x128.size a ≤ S6x32x128x128.size a
  inb_S6x32x128x128_S1x1x128x128_4_16_0_0 : ∀ a, (![4, 16, 0, 0] : Fin 4 → Nat) a + S1x1x128x128.size a ≤ S6x32x128x128.size a
  inb_S6x32x128x128_S1x1x128x128_5_8_0_0 : ∀ a, (![5, 8, 0, 0] : Fin 4 → Nat) a + S1x1x128x128.size a ≤ S6x32x128x128.size a
  inb_S1x4096_S1x128_0_3072 : ∀ a, (![0, 3072] : Fin 2 → Nat) a + S1x128.size a ≤ S1x4096.size a
  inb_S256x4096_S256x128_0_3072 : ∀ a, (![0, 3072] : Fin 2 → Nat) a + S256x128.size a ≤ S256x4096.size a
  inb_S6x32x128x128_S1x1x128x128_0_25_0_0 : ∀ a, (![0, 25, 0, 0] : Fin 4 → Nat) a + S1x1x128x128.size a ≤ S6x32x128x128.size a
  inb_S6x32x128x128_S1x1x128x128_1_24_0_0 : ∀ a, (![1, 24, 0, 0] : Fin 4 → Nat) a + S1x1x128x128.size a ≤ S6x32x128x128.size a
  inb_S6x32x128x128_S1x1x128x128_2_27_0_0 : ∀ a, (![2, 27, 0, 0] : Fin 4 → Nat) a + S1x1x128x128.size a ≤ S6x32x128x128.size a
  inb_S6x32x128x128_S1x1x128x128_3_29_0_0 : ∀ a, (![3, 29, 0, 0] : Fin 4 → Nat) a + S1x1x128x128.size a ≤ S6x32x128x128.size a
  inb_S6x32x128x128_S1x1x128x128_4_17_0_0 : ∀ a, (![4, 17, 0, 0] : Fin 4 → Nat) a + S1x1x128x128.size a ≤ S6x32x128x128.size a
  inb_S6x32x128x128_S1x1x128x128_5_9_0_0 : ∀ a, (![5, 9, 0, 0] : Fin 4 → Nat) a + S1x1x128x128.size a ≤ S6x32x128x128.size a
  inb_S1x4096_S1x128_0_3200 : ∀ a, (![0, 3200] : Fin 2 → Nat) a + S1x128.size a ≤ S1x4096.size a
  inb_S256x4096_S256x128_0_3200 : ∀ a, (![0, 3200] : Fin 2 → Nat) a + S256x128.size a ≤ S256x4096.size a
  inb_S6x32x128x128_S1x1x128x128_0_26_0_0 : ∀ a, (![0, 26, 0, 0] : Fin 4 → Nat) a + S1x1x128x128.size a ≤ S6x32x128x128.size a
  inb_S6x32x128x128_S1x1x128x128_1_27_0_0 : ∀ a, (![1, 27, 0, 0] : Fin 4 → Nat) a + S1x1x128x128.size a ≤ S6x32x128x128.size a
  inb_S6x32x128x128_S1x1x128x128_2_24_0_0 : ∀ a, (![2, 24, 0, 0] : Fin 4 → Nat) a + S1x1x128x128.size a ≤ S6x32x128x128.size a
  inb_S6x32x128x128_S1x1x128x128_3_30_0_0 : ∀ a, (![3, 30, 0, 0] : Fin 4 → Nat) a + S1x1x128x128.size a ≤ S6x32x128x128.size a
  inb_S6x32x128x128_S1x1x128x128_4_18_0_0 : ∀ a, (![4, 18, 0, 0] : Fin 4 → Nat) a + S1x1x128x128.size a ≤ S6x32x128x128.size a
  inb_S6x32x128x128_S1x1x128x128_5_10_0_0 : ∀ a, (![5, 10, 0, 0] : Fin 4 → Nat) a + S1x1x128x128.size a ≤ S6x32x128x128.size a
  inb_S1x4096_S1x128_0_3328 : ∀ a, (![0, 3328] : Fin 2 → Nat) a + S1x128.size a ≤ S1x4096.size a
  inb_S256x4096_S256x128_0_3328 : ∀ a, (![0, 3328] : Fin 2 → Nat) a + S256x128.size a ≤ S256x4096.size a
  inb_S6x32x128x128_S1x1x128x128_0_27_0_0 : ∀ a, (![0, 27, 0, 0] : Fin 4 → Nat) a + S1x1x128x128.size a ≤ S6x32x128x128.size a
  inb_S6x32x128x128_S1x1x128x128_1_26_0_0 : ∀ a, (![1, 26, 0, 0] : Fin 4 → Nat) a + S1x1x128x128.size a ≤ S6x32x128x128.size a
  inb_S6x32x128x128_S1x1x128x128_2_25_0_0 : ∀ a, (![2, 25, 0, 0] : Fin 4 → Nat) a + S1x1x128x128.size a ≤ S6x32x128x128.size a
  inb_S6x32x128x128_S1x1x128x128_3_31_0_0 : ∀ a, (![3, 31, 0, 0] : Fin 4 → Nat) a + S1x1x128x128.size a ≤ S6x32x128x128.size a
  inb_S6x32x128x128_S1x1x128x128_4_19_0_0 : ∀ a, (![4, 19, 0, 0] : Fin 4 → Nat) a + S1x1x128x128.size a ≤ S6x32x128x128.size a
  inb_S6x32x128x128_S1x1x128x128_5_11_0_0 : ∀ a, (![5, 11, 0, 0] : Fin 4 → Nat) a + S1x1x128x128.size a ≤ S6x32x128x128.size a
  inb_S1x4096_S1x128_0_3456 : ∀ a, (![0, 3456] : Fin 2 → Nat) a + S1x128.size a ≤ S1x4096.size a
  inb_S256x4096_S256x128_0_3456 : ∀ a, (![0, 3456] : Fin 2 → Nat) a + S256x128.size a ≤ S256x4096.size a
  inb_S6x32x128x128_S1x1x128x128_0_28_0_0 : ∀ a, (![0, 28, 0, 0] : Fin 4 → Nat) a + S1x1x128x128.size a ≤ S6x32x128x128.size a
  inb_S6x32x128x128_S1x1x128x128_1_29_0_0 : ∀ a, (![1, 29, 0, 0] : Fin 4 → Nat) a + S1x1x128x128.size a ≤ S6x32x128x128.size a
  inb_S6x32x128x128_S1x1x128x128_2_30_0_0 : ∀ a, (![2, 30, 0, 0] : Fin 4 → Nat) a + S1x1x128x128.size a ≤ S6x32x128x128.size a
  inb_S6x32x128x128_S1x1x128x128_3_24_0_0 : ∀ a, (![3, 24, 0, 0] : Fin 4 → Nat) a + S1x1x128x128.size a ≤ S6x32x128x128.size a
  inb_S6x32x128x128_S1x1x128x128_4_20_0_0 : ∀ a, (![4, 20, 0, 0] : Fin 4 → Nat) a + S1x1x128x128.size a ≤ S6x32x128x128.size a
  inb_S6x32x128x128_S1x1x128x128_5_12_0_0 : ∀ a, (![5, 12, 0, 0] : Fin 4 → Nat) a + S1x1x128x128.size a ≤ S6x32x128x128.size a
  inb_S1x4096_S1x128_0_3584 : ∀ a, (![0, 3584] : Fin 2 → Nat) a + S1x128.size a ≤ S1x4096.size a
  inb_S256x4096_S256x128_0_3584 : ∀ a, (![0, 3584] : Fin 2 → Nat) a + S256x128.size a ≤ S256x4096.size a
  inb_S6x32x128x128_S1x1x128x128_0_29_0_0 : ∀ a, (![0, 29, 0, 0] : Fin 4 → Nat) a + S1x1x128x128.size a ≤ S6x32x128x128.size a
  inb_S6x32x128x128_S1x1x128x128_1_28_0_0 : ∀ a, (![1, 28, 0, 0] : Fin 4 → Nat) a + S1x1x128x128.size a ≤ S6x32x128x128.size a
  inb_S6x32x128x128_S1x1x128x128_2_31_0_0 : ∀ a, (![2, 31, 0, 0] : Fin 4 → Nat) a + S1x1x128x128.size a ≤ S6x32x128x128.size a
  inb_S6x32x128x128_S1x1x128x128_3_25_0_0 : ∀ a, (![3, 25, 0, 0] : Fin 4 → Nat) a + S1x1x128x128.size a ≤ S6x32x128x128.size a
  inb_S6x32x128x128_S1x1x128x128_4_21_0_0 : ∀ a, (![4, 21, 0, 0] : Fin 4 → Nat) a + S1x1x128x128.size a ≤ S6x32x128x128.size a
  inb_S6x32x128x128_S1x1x128x128_5_13_0_0 : ∀ a, (![5, 13, 0, 0] : Fin 4 → Nat) a + S1x1x128x128.size a ≤ S6x32x128x128.size a
  inb_S1x4096_S1x128_0_3712 : ∀ a, (![0, 3712] : Fin 2 → Nat) a + S1x128.size a ≤ S1x4096.size a
  inb_S256x4096_S256x128_0_3712 : ∀ a, (![0, 3712] : Fin 2 → Nat) a + S256x128.size a ≤ S256x4096.size a
  inb_S6x32x128x128_S1x1x128x128_0_30_0_0 : ∀ a, (![0, 30, 0, 0] : Fin 4 → Nat) a + S1x1x128x128.size a ≤ S6x32x128x128.size a
  inb_S6x32x128x128_S1x1x128x128_1_31_0_0 : ∀ a, (![1, 31, 0, 0] : Fin 4 → Nat) a + S1x1x128x128.size a ≤ S6x32x128x128.size a
  inb_S6x32x128x128_S1x1x128x128_2_28_0_0 : ∀ a, (![2, 28, 0, 0] : Fin 4 → Nat) a + S1x1x128x128.size a ≤ S6x32x128x128.size a
  inb_S6x32x128x128_S1x1x128x128_3_26_0_0 : ∀ a, (![3, 26, 0, 0] : Fin 4 → Nat) a + S1x1x128x128.size a ≤ S6x32x128x128.size a
  inb_S6x32x128x128_S1x1x128x128_4_22_0_0 : ∀ a, (![4, 22, 0, 0] : Fin 4 → Nat) a + S1x1x128x128.size a ≤ S6x32x128x128.size a
  inb_S6x32x128x128_S1x1x128x128_5_14_0_0 : ∀ a, (![5, 14, 0, 0] : Fin 4 → Nat) a + S1x1x128x128.size a ≤ S6x32x128x128.size a
  inb_S1x4096_S1x128_0_3840 : ∀ a, (![0, 3840] : Fin 2 → Nat) a + S1x128.size a ≤ S1x4096.size a
  inb_S256x4096_S256x128_0_3840 : ∀ a, (![0, 3840] : Fin 2 → Nat) a + S256x128.size a ≤ S256x4096.size a
  inb_S6x32x128x128_S1x1x128x128_0_31_0_0 : ∀ a, (![0, 31, 0, 0] : Fin 4 → Nat) a + S1x1x128x128.size a ≤ S6x32x128x128.size a
  inb_S6x32x128x128_S1x1x128x128_1_30_0_0 : ∀ a, (![1, 30, 0, 0] : Fin 4 → Nat) a + S1x1x128x128.size a ≤ S6x32x128x128.size a
  inb_S6x32x128x128_S1x1x128x128_2_29_0_0 : ∀ a, (![2, 29, 0, 0] : Fin 4 → Nat) a + S1x1x128x128.size a ≤ S6x32x128x128.size a
  inb_S6x32x128x128_S1x1x128x128_3_27_0_0 : ∀ a, (![3, 27, 0, 0] : Fin 4 → Nat) a + S1x1x128x128.size a ≤ S6x32x128x128.size a
  inb_S6x32x128x128_S1x1x128x128_4_23_0_0 : ∀ a, (![4, 23, 0, 0] : Fin 4 → Nat) a + S1x1x128x128.size a ≤ S6x32x128x128.size a
  inb_S6x32x128x128_S1x1x128x128_5_15_0_0 : ∀ a, (![5, 15, 0, 0] : Fin 4 → Nat) a + S1x1x128x128.size a ≤ S6x32x128x128.size a
  inb_S1x4096_S1x128_0_3968 : ∀ a, (![0, 3968] : Fin 2 → Nat) a + S1x128.size a ≤ S1x4096.size a
  inb_S256x4096_S256x128_0_3968 : ∀ a, (![0, 3968] : Fin 2 → Nat) a + S256x128.size a ≤ S256x4096.size a
  dot_S256x128_S128x128_S256x128_1_0_0_1_n_n_wf : DotDims.WF S256x128 S128x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x32x128x128.size a ≤ S6x32x128x128.size a
  hwx0_1 : ∀ i : grid0.Coords, EltTy.bits .f32 = 32 ∨ (Rect.block (s := S6x32x128x128) S6x32x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .f32 = 32 ∨ (Rect.block (s := S4096x4096) S256x4096.size (cc0_transform_3 i) (hinb0_3 i)).WholeWords (EltTy.packing .f32)

variable [Facts₀]

def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S6x32x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S6x32x128x128 : Shape := ⟨4, ![6, 32, 128, 128]⟩
abbrev S4096 : Shape := ⟨1, ![4096]⟩
abbrev S32 : Shape := ⟨1, ![32]⟩
abbrev S_ : Shape := ⟨0, ![]⟩
abbrev S32x32x128x128 : Shape := ⟨4, ![32, 32, 128, 128]⟩
abbrev S1x32x128x128 : Shape := ⟨4, ![1, 32, 128, 128]⟩
abbrev S32x128x128 : Shape := ⟨3, ![32, 128, 128]⟩
abbrev S32x1 : Shape := ⟨2, ![32, 1]⟩
abbrev S32x2 : Shape := ⟨2, ![32, 2]⟩
abbrev S32x128x32x128 : Shape := ⟨4, ![32, 128, 32, 128]⟩
abbrev S1x4096 : Shape := ⟨2, ![1, 4096]⟩

abbrev nBuf : Space → Nat
  | .hbm => 148
  | .vmem => 0
  | .smem => 0
  | _ => 0

abbrev hbmTy0_0 (i : Nat) : BufTy := match i % 128 with
  | 0 => ⟨S4096x4096, .f32⟩
  | 1 => ⟨S6x32x128x128, .f32⟩
  | 2 => ⟨S4096, .f32⟩
  | 3 => ⟨S32, .i32⟩
  | 4 => ⟨S_, .f32⟩
  | 5 => ⟨S32x32x128x128, .f32⟩
  | 6 => ⟨S1x32x128x128, .f32⟩
  | 7 => ⟨S32x128x128, .f32⟩
  | 8 => ⟨S_, .i32⟩
  | 9 => ⟨S32, .i32⟩
  | 10 => ⟨S32, .i1⟩
  | 11 => ⟨S_, .i32⟩
  | 12 => ⟨S32, .i32⟩
  | 13 => ⟨S32, .i32⟩
  | 14 => ⟨S32, .i32⟩
  | 15 => ⟨S_, .i32⟩
  | 16 => ⟨S32, .i32⟩
  | 17 => ⟨S32, .i1⟩
  | 18 => ⟨S_, .i32⟩
  | 19 => ⟨S32, .i32⟩
  | 20 => ⟨S32, .i32⟩
  | 21 => ⟨S32, .i32⟩
  | 22 => ⟨S32x1, .i32⟩
  | 23 => ⟨S32x1, .i32⟩
  | 24 => ⟨S32x2, .i32⟩
  | 25 => ⟨S32x32x128x128, .f32⟩
  | 26 => ⟨S_, .i32⟩
  | 27 => ⟨S32, .i32⟩
  | 28 => ⟨S32, .i32⟩
  | 29 => ⟨S1x32x128x128, .f32⟩
  | 30 => ⟨S32x128x128, .f32⟩
  | 31 => ⟨S_, .i32⟩
  | 32 => ⟨S32, .i32⟩
  | 33 => ⟨S32, .i1⟩
  | 34 => ⟨S_, .i32⟩
  | 35 => ⟨S32, .i32⟩
  | 36 => ⟨S32, .i32⟩
  | 37 => ⟨S32, .i32⟩
  | 38 => ⟨S_, .i32⟩
  | 39 => ⟨S32, .i32⟩
  | 40 => ⟨S32, .i1⟩
  | 41 => ⟨S_, .i32⟩
  | 42 => ⟨S32, .i32⟩
  | 43 => ⟨S32, .i32⟩
  | 44 => ⟨S32, .i32⟩
  | 45 => ⟨S32x1, .i32⟩
  | 46 => ⟨S32x1, .i32⟩
  | 47 => ⟨S32x2, .i32⟩
  | 48 => ⟨S32x32x128x128, .f32⟩
  | 49 => ⟨S_, .i32⟩
  | 50 => ⟨S32, .i32⟩
  | 51 => ⟨S32, .i32⟩
  | 52 => ⟨S1x32x128x128, .f32⟩
  | 53 => ⟨S32x128x128, .f32⟩
  | 54 => ⟨S_, .i32⟩
  | 55 => ⟨S32, .i32⟩
  | 56 => ⟨S32, .i1⟩
  | 57 => ⟨S_, .i32⟩
  | 58 => ⟨S32, .i32⟩
  | 59 => ⟨S32, .i32⟩
  | 60 => ⟨S32, .i32⟩
  | 61 => ⟨S_, .i32⟩
  | 62 => ⟨S32, .i32⟩
  | 63 => ⟨S32, .i1⟩
  | 64 => ⟨S_, .i32⟩
  | 65 => ⟨S32, .i32⟩
  | 66 => ⟨S32, .i32⟩
  | 67 => ⟨S32, .i32⟩
  | 68 => ⟨S32x1, .i32⟩
  | 69 => ⟨S32x1, .i32⟩
  | 70 => ⟨S32x2, .i32⟩
  | 71 => ⟨S32x32x128x128, .f32⟩
  | 72 => ⟨S_, .i32⟩
  | 73 => ⟨S32, .i32⟩
  | 74 => ⟨S32, .i32⟩
  | 75 => ⟨S1x32x128x128, .f32⟩
  | 76 => ⟨S32x128x128, .f32⟩
  | 77 => ⟨S_, .i32⟩
  | 78 => ⟨S32, .i32⟩
  | 79 => ⟨S32, .i1⟩
  | 80 => ⟨S_, .i32⟩
  | 81 => ⟨S32, .i32⟩
  | 82 => ⟨S32, .i32⟩
  | 83 => ⟨S32, .i32⟩
  | 84 => ⟨S_, .i32⟩
  | 85 => ⟨S32, .i32⟩
  | 86 => ⟨S32, .i1⟩
  | 87 => ⟨S_, .i32⟩
  | 88 => ⟨S32, .i32⟩
  | 89 => ⟨S32, .i32⟩
  | 90 => ⟨S32, .i32⟩
  | 91 => ⟨S32x1, .i32⟩
  | 92 => ⟨S32x1, .i32⟩
  | 93 => ⟨S32x2, .i32⟩
  | 94 => ⟨S32x32x128x128, .f32⟩
  | 95 => ⟨S_, .i32⟩
  | 96 => ⟨S32, .i32⟩
  | 97 => ⟨S32, .i32⟩
  | 98 => ⟨S1x32x128x128, .f32⟩
  | 99 => ⟨S32x128x128, .f32⟩
  | 100 => ⟨S_, .i32⟩
  | 101 => ⟨S32, .i32⟩
  | 102 => ⟨S32, .i1⟩
  | 103 => ⟨S_, .i32⟩
  | 104 => ⟨S32, .i32⟩
  | 105 => ⟨S32, .i32⟩
  | 106 => ⟨S32, .i32⟩
  | 107 => ⟨S_, .i32⟩
  | 108 => ⟨S32, .i32⟩
  | 109 => ⟨S32, .i1⟩
  | 110 => ⟨S_, .i32⟩
  | 111 => ⟨S32, .i32⟩
  | 112 => ⟨S32, .i32⟩
  | 113 => ⟨S32, .i32⟩
  | 114 => ⟨S32x1, .i32⟩
  | 115 => ⟨S32x1, .i32⟩
  | 116 => ⟨S32x2, .i32⟩
  | 117 => ⟨S32x32x128x128, .f32⟩
  | 118 => ⟨S_, .i32⟩
  | 119 => ⟨S32, .i32⟩
  | 120 => ⟨S32, .i32⟩
  | 121 => ⟨S1x32x128x128, .f32⟩
  | 122 => ⟨S32x128x128, .f32⟩
  | 123 => ⟨S_, .i32⟩
  | 124 => ⟨S32, .i32⟩
  | 125 => ⟨S32, .i1⟩
  | 126 => ⟨S_, .i32⟩
  | 127 => ⟨S32, .i32⟩
  | _ => ⟨S4096x4096, .f32⟩

abbrev hbmTy0_1 (i : Nat) : BufTy := match i % 128 with
  | 0 => ⟨S32, .i32⟩
  | 1 => ⟨S32, .i32⟩
  | 2 => ⟨S_, .i32⟩
  | 3 => ⟨S32, .i32⟩
  | 4 => ⟨S32, .i1⟩
  | 5 => ⟨S_, .i32⟩
  | 6 => ⟨S32, .i32⟩
  | 7 => ⟨S32, .i32⟩
  | 8 => ⟨S32, .i32⟩
  | 9 => ⟨S32x1, .i32⟩
  | 10 => ⟨S32x1, .i32⟩
  | 11 => ⟨S32x2, .i32⟩
  | 12 => ⟨S32x32x128x128, .f32⟩
  | 13 => ⟨S32x128x32x128, .f32⟩
  | 14 => ⟨S4096x4096, .f32⟩
  | 15 => ⟨S4096x4096, .f32⟩
  | 16 => ⟨S4096x4096, .f32⟩
  | 17 => ⟨S1x4096, .f32⟩
  | 18 => ⟨S4096x4096, .f32⟩
  | 19 => ⟨S4096x4096, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_6 : Ref sig .tc := ⟨.hbm, 38, rfl⟩
abbrev main_v27 : Ref sig .tc := ⟨.hbm, 39, rfl⟩
abbrev main_v28 : Ref sig .tc := ⟨.hbm, 40, rfl⟩
abbrev main_c_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_9 : Ref sig .tc := ⟨.hbm, 54, rfl⟩
abbrev main_v40 : Ref sig .tc := ⟨.hbm, 55, rfl⟩
abbrev main_v41 : Ref sig .tc := ⟨.hbm, 56, rfl⟩
abbrev main_c_10 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_11 : Ref sig .tc := ⟨.hbm, 61, rfl⟩
abbrev main_v45 : Ref sig .tc := ⟨.hbm, 62, rfl⟩
abbrev main_v46 : Ref sig .tc := ⟨.hbm, 63, rfl⟩
abbrev main_c_12 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_13 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c_14 : Ref sig .tc := ⟨.hbm, 77, rfl⟩
abbrev main_v58 : Ref sig .tc := ⟨.hbm, 78, rfl⟩
abbrev main_v59 : Ref sig .tc := ⟨.hbm, 79, rfl⟩
abbrev main_c_15 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_16 : Ref sig .tc := ⟨.hbm, 84, rfl⟩
abbrev main_v63 : Ref sig .tc := ⟨.hbm, 85, rfl⟩
abbrev main_v64 : Ref sig .tc := ⟨.hbm, 86, rfl⟩
abbrev main_c_17 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_c_18 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_c_19 : Ref sig .tc := ⟨.hbm, 100, rfl⟩
abbrev main_v76 : Ref sig .tc := ⟨.hbm, 101, rfl⟩
abbrev main_v77 : Ref sig .tc := ⟨.hbm, 102, rfl⟩
abbrev main_c_20 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_c_21 : Ref sig .tc := ⟨.hbm, 107, rfl⟩
abbrev main_v81 : Ref sig .tc := ⟨.hbm, 108, rfl⟩
abbrev main_v82 : Ref sig .tc := ⟨.hbm, 109, rfl⟩
abbrev main_c_22 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_c_23 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_c_24 : Ref sig .tc := ⟨.hbm, 123, rfl⟩
abbrev main_v94 : Ref sig .tc := ⟨.hbm, 124, rfl⟩
abbrev main_v95 : Ref sig .tc := ⟨.hbm, 125, rfl⟩
abbrev main_c_25 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_c_26 : Ref sig .tc := ⟨.hbm, 130, rfl⟩
abbrev main_v99 : Ref sig .tc := ⟨.hbm, 131, rfl⟩
abbrev main_v100 : Ref sig .tc := ⟨.hbm, 132, rfl⟩
abbrev main_c_27 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩

abbrev nD : Nat := 1
abbrev τ : Topo := Topo.v7x

variable {F : FTy → Type} [FloatOps F]

class Facts₀ : Prop where
  bcast_S_S32x32x128x128 : S_.BroadcastsInDim S32x32x128x128 (![] : Fin 0 → Fin S32x32x128x128.rank)
  slices_S6x32x128x128_S1x32x128x128_0_0_0_0 : S6x32x128x128.Slices ![0, 0, 0, 0] S1x32x128x128
  shapeCasts_S1x32x128x128_S32x128x128 : S1x32x128x128.ShapeCasts S32x128x128
  bcast_S_S32 : S_.BroadcastsInDim S32 (![] : Fin 0 → Fin S32.rank)
  bcast_S32_S32x1_0 : S32.BroadcastsInDim S32x1 (![0] : Fin 1 → Fin S32x1.rank)
  concatenates_S32x1_S32x1_S32x2_d1 : Shape.Concatenates [S32x1, S32x1] S32x2 1
  slices_S6x32x128x128_S1x32x128x128_1_0_0_0 : S6x32x128x128.Slices ![1, 0, 0, 0] S1x32x128x128
  slices_S6x32x128x128_S1x32x128x128_2_0_0_0 : S6x32x128x128.Slices ![2, 0, 0, 0] S1x32x128x128
  slices_S6x32x128x128_S1x32x128x128_3_0_0_0 : S6x32x128x128.Slices ![3, 0, 0, 0] S1x32x128x128
  slices_S6x32x128x128_S1x32x128x128_4_0_0_0 : S6x32x128x128.Slices ![4, 0, 0, 0] S1x32x128x128
  slices_S6x32x128x128_S1x32x128x128_5_0_0_0 : S6x32x128x128.Slices ![5, 0, 0, 0] S1x32x128x128
  transposes_S32x32x128x128_S32x128x32x128_0_2_1_3 : S32x32x128x128.Transposes [0, 2, 1, 3] S32x128x32x128
  shapeCasts_S32x128x32x128_S4096x4096 : S32x128x32x128.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  scatter_S32x32x128x128_S32x2_S32x128x128_12_01_01_1_wf : ScatterDims.WF S32x32x128x128 S32x2 S32x128x128 [1, 2] [0, 1] [0, 1] 1
  dot_S4096x4096_S4096x4096_S4096x4096_1_0_0_1_n_n_wf : DotDims.WF S4096x4096 S4096x4096 S4096x4096 [1] [0] [0] [1] [] []

variable [Facts₀]

def scatter_S32x32x128x128_S32x2_S32x128x128_12_01_01_1 : ScatterDims S32x32x128x128 S32x2 S32x128x128 where
  updateWindowDims := [1, 2]
  insertedWindowDims := [0, 1]
  scatterDimsToOperandDims := [0, 1]
  indexVectorDim := 1
  wf := scatter_S32x32x128x128_S32x2_S32x128x128_12_01_01_1_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.BodyProduct.lean ====
/-
  One 128-wide column block of the kernel's output tile, read at an entry.

  The body computes, for each of the 32 column blocks of its 256-row tile, six products of a 256 × 128 slice of the
  tile's rows (at a static column offset) with a 128 × 128 weight block, adds them one after the other onto a zero tile,
  and adds a broadcast row of the bias. At the exact values a change of float format is the identity and a product into
  the zero accumulator is the plain sum over the contracted axis, so entry (`p`, `q`) of the block is
  `0 + Σ_k x[p, o₀ + k] · w₀[k, q] + … + Σ_k x[p, o₅ + k] · w₅[k, q] + b[q]`.
-/
import proofs.«133062_j58248346469061_2_alg».proof.Proof.Gen.KernelIdeal.Frame
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.Hypercube.Body

open Cert.KernelIdeal Cert.KernelIdeal.Facts₀ Cert.KernelIdeal.Facts

/-- The body's one contraction: [256,128] × [128,128] over the left operand's columns and the right operand's rows. -/
abbrev DD := dot_S256x128_S128x128_S256x128_1_0_0_1_n_n

theorem lhs_row (i : S256x128.Idx) (κ : DD.contr.Idx) : (DD.lhsIdx i κ 0).val = (i 0).val := by
  unfold DotDims.lhsIdx
  rw [dif_neg (show ¬(0 : Fin S256x128.rank) ∈ DD.lhsBatch by decide), dif_pos (show (0 : Fin S256x128.rank) ∈ DD.lhsNonContracting by decide)]
  rfl
theorem lhs_col (i : S256x128.Idx) (κ : DD.contr.Idx) : (DD.lhsIdx i κ 1).val = (κ ⟨0, by decide⟩).val :=
  DD.lhsIdx_val_of_single rfl i κ
theorem rhs_row (i : S256x128.Idx) (κ : DD.contr.Idx) : (DD.rhsIdx i κ 0).val = (κ ⟨0, by decide⟩).val :=
  DD.rhsIdx_val_of_single rfl i κ
theorem rhs_col (i : S256x128.Idx) (κ : DD.contr.Idx) : (DD.rhsIdx i κ 1).val = (i 1).val := by
  unfold DotDims.rhsIdx
  rw [dif_neg (show ¬(1 : Fin S128x128.rank) ∈ DD.rhsBatch by decide), dif_pos (show (1 : Fin S128x128.rank) ∈ DD.rhsNonContracting by decide)]
  rfl

/-- One product of the body: the tile's columns `o … o + 127` against a weight block loaded as [1,1,128,128]. -/
def prod (x0 : FVec Ideal S256x4096 .f32) (o : Nat) (h : S256x4096.Slices ![0, o] S256x128) (w : FVec Ideal S1x1x128x128 .f32) :
    FVec Ideal S256x128 .f32 :=
  matmul DD none (extractStridedSlice S256x128 ![0, o] (truncf .bf16 x0 bitsLt_bf16_f32) h)
    (truncf .bf16 (shapeCast S128x128 w shapeCasts_S1x1x128x128_S128x128) bitsLt_bf16_f32) (constant S256x128 .f32 0x00000000#32)

/-- Entry (`p`, `q`) of that product is the sum over the 128 contracted places. -/
theorem prod_apply (x0 : FVec Ideal S256x4096 .f32) (o : Nat) (h : S256x4096.Slices ![0, o] S256x128) (ho : o + 128 ≤ 4096)
    (w : FVec Ideal S1x1x128x128 .f32) (p : Fin 256) (q : Fin 128) :
    prod x0 o h w (ix2 p q) = ∑ k : Fin 128, x0 (ix2 p ⟨o + k.val, by have := k.isLt; omega⟩) * w (ix4 0 0 k q) := by
  unfold prod
  simp only [matmul]
  rw [Ideal.matmul_constant_zero_apply, ← Equiv.sum_comp (contrEquiv1 DD 128 rfl rfl).symm]
  refine Finset.sum_congr rfl fun k _ => ?_
  have hk := contrEquiv1_symm_val DD 128 rfl rfl k
  generalize (contrEquiv1 DD 128 rfl rfl).symm k = κ at hk
  have el : extractStridedSlice S256x128 ![0, o] (truncf .bf16 x0 bitsLt_bf16_f32) h (DD.lhsIdx (ix2 p q) κ)
      = x0 (ix2 p ⟨o + k.val, by have := k.isLt; omega⟩) := by
    rw [extractStridedSlice_apply ![0, o] _ h (DD.lhsIdx (ix2 p q) κ) (ix2 p ⟨o + k.val, by have := k.isLt; omega⟩) (fun a => by
      match a with
      | ⟨0, _⟩ =>
        show p.val = 0 + (DD.lhsIdx (ix2 p q) κ 0).val
        rw [Nat.zero_add, lhs_row (ix2 p q) κ]
      | ⟨1, _⟩ =>
        show o + k.val = o + (DD.lhsIdx (ix2 p q) κ 1).val
        rw [lhs_col (ix2 p q) κ, hk])]
    rfl
  have er : truncf .bf16 (shapeCast S128x128 w shapeCasts_S1x1x128x128_S128x128) bitsLt_bf16_f32 (DD.rhsIdx (ix2 p q) κ)
      = w (ix4 0 0 k q) := by
    rw [truncf_apply, shapeCast_apply w shapeCasts_S1x1x128x128_S128x128 (DD.rhsIdx (ix2 p q) κ) (ix4 0 0 k q) (by
      rw [Shape.rowMajor_val_four, Shape.rowMajor_val_two]
      have h0 := (rhs_row (ix2 p q) κ).trans hk
      have h1 := rhs_col (ix2 p q) κ
      show ((0 * 1 + 0) * 128 + k.val) * 128 + q.val = (DD.rhsIdx (ix2 p q) κ 0).val * 128 + (DD.rhsIdx (ix2 p q) κ 1).val
      rw [h0, h1]; show _ = k.val * 128 + q.val; omega)]
  rw [el, er]

end Cert.Hypercube.Body

end
-- ==== Proof.Hypercube.lean ====
/-
  The mathematics of a hypercube-sparse linear layer, with no program in sight.

  The 4096 input features and the 4096 output features are cut into 32 blocks of 128. Output block `j` listens to six input
  blocks only: itself and its five neighbours on the 5-cube, `j xor 1, 2, 4, 8, 16` (`nbr j d`, with the mask `0` for `d = 0`).
  The weight is stored sparsely as `hw[d, n, o, i]`: the 128 × 128 block that carries INPUT block `n` into its `d`-th neighbour,
  `o` the output feature inside the block and `i` the input feature inside the block.

  * `dense hw a b o i` is the dense block matrix a scatter of those blocks builds: block (`a`, `b`) is `hw[d, b]` when
    `a = nbr b d` and zero when `a` is none of `b`'s neighbours (written as the chain of overwrites, last written first).
  * `term x hw r j q d` is the contribution of neighbour `d` to output feature `128 j + q` of row `r`.
  * `G x hw bias` is the layer: the six contributions and the bias.
-/
import Idealize.ShloMosaic.PureOps.Ideal
import Idealize.ShloMosaic.Lib.ValueIdx

noncomputable section

open Idealize.ShloMosaic Idealize.ShloMosaic.ValueIdx
open scoped BigOperators

namespace Cert.Hypercube

/-- The six masks: a block itself, then its five neighbours on the 5-cube. -/
def mask : Fin 6 → Nat := ![0, 1, 2, 4, 8, 16]

/-- Flipping one of the five low bits of a number below 32 stays below 32. -/
theorem xor_mask_lt : ∀ (j : Fin 32) (d : Fin 6), j.val ^^^ mask d < 32 := by decide

/-- Block `j`'s `d`-th neighbour. -/
def nbr (j : Fin 32) (d : Fin 6) : Fin 32 := ⟨j.val ^^^ mask d, xor_mask_lt j d⟩

/-- Being a `d`-th neighbour is symmetric. -/
theorem eq_nbr_comm : ∀ (a b : Fin 32) (d : Fin 6), a = nbr b d ↔ b = nbr a d := by decide

/-- A block's six neighbours are six different blocks: going to the `d`-th neighbour and then to the `d'`-th comes back
    only when `d' = d`. -/
theorem eq_nbr_nbr_iff : ∀ (a : Fin 32) (d d' : Fin 6), a = nbr (nbr a d) d' ↔ d' = d := by decide

/-- `d ↦ nbr j d` is injective. -/
theorem nbr_injective (j : Fin 32) : Function.Injective (nbr j) := by
  revert j; decide

/-- Feature `k` of block `n`, as a feature of the whole 4096-wide axis. -/
def col (n : Fin 32) (k : Fin 128) : Fin 4096 := ⟨n.val * 128 + k.val, by have := n.isLt; have := k.isLt; omega⟩

/-- Neighbour `d`'s contribution to output feature `q` of output block `j`, row `r`: the inner product of `x`'s row over
    input block `nbr j d` with row `q` of the block `hw[d, nbr j d]`. -/
def term (x : (⟨2, ![4096, 4096]⟩ : Shape).Idx → EReal) (hw : (⟨4, ![6, 32, 128, 128]⟩ : Shape).Idx → EReal)
    (r : Fin 4096) (j : Fin 32) (q : Fin 128) (d : Fin 6) : EReal :=
  ∑ k : Fin 128, x (ix2 r (col (nbr j d) k)) * hw (ix4 d (nbr j d) q k)

/-- The block an output feature lies in. -/
def blockOf (c : Fin 4096) : Fin 32 := ⟨c.val / 128, by have := c.isLt; omega⟩
/-- Its place inside that block. -/
def within (c : Fin 4096) : Fin 128 := ⟨c.val % 128, Nat.mod_lt _ (by decide)⟩

/-- The layer: entry (`r`, `c`) is the sum of the six neighbour contributions to feature `c`, plus the bias. -/
def G (x : (⟨2, ![4096, 4096]⟩ : Shape).Idx → EReal) (hw : (⟨4, ![6, 32, 128, 128]⟩ : Shape).Idx → EReal)
    (bias : (⟨1, ![4096]⟩ : Shape).Idx → EReal) : (⟨2, ![4096, 4096]⟩ : Shape).Idx → EReal := fun i =>
  (∑ d : Fin 6, term x hw (i 0) (blockOf (i 1)) (within (i 1)) d) + bias (ix1 (i 1))

/-- The dense 32 × 32 block matrix the sparse blocks scatter into: block (`a`, `b`) holds `hw[d, b]` when `a` is `b`'s
    `d`-th neighbour, and zero when it is none of them. Written as the overwrites happen, the last one first. -/
def dense (hw : (⟨4, ![6, 32, 128, 128]⟩ : Shape).Idx → EReal) (a b : Fin 32) (o i : Fin 128) : EReal :=
  if a = nbr b 5 then hw (ix4 5 b o i) else
  if a = nbr b 4 then hw (ix4 4 b o i) else
  if a = nbr b 3 then hw (ix4 3 b o i) else
  if a = nbr b 2 then hw (ix4 2 b o i) else
  if a = nbr b 1 then hw (ix4 1 b o i) else
  if a = nbr b 0 then hw (ix4 0 b o i) else 0

end Cert.Hypercube

end
-- ==== Proof.BodyBlock.lean ====
/-
  A whole 256-row tile of the kernel's output, as one function of the three staged blocks.

  `tile x0 x1 x2` is what the tile must hold: at row `p` and feature `c` (block `j = c / 128`, place `q = c % 128`) the six
  inner products of row `p` of `x0` over the neighbour blocks `nbr j d` with column `q` of the staged weight block
  `x1[d, nbr j d]` (the staged weight is laid out [place in the input block, place in the output block]), and `x2[0, c]`.
  `block` is the value the body stores into one 128-wide column block (six products added onto zero in order, then the
  bias row), and `block_tile` says that when the six static offsets and block numbers are those of column block `j`, this
  stored value is `tile` restricted to that column block.
-/
import proofs.«133062_j58248346469061_2_alg».proof.Proof.BodyProduct
import proofs.«133062_j58248346469061_2_alg».proof.Proof.Hypercube

noncomputable section

open Idealize.ShloMosaic Idealize.ShloMosaic.ValueIdx
open scoped BigOperators

namespace Cert.Hypercube.Body

open Cert.KernelIdeal Cert.KernelIdeal.Facts₀ Cert.KernelIdeal.Facts Cert.Hypercube

/-- What a tile of 256 rows must hold, from the tile's rows of `x` (`x0`), the staged weight (`x1`) and the staged bias row (`x2`). -/
def tile (x0 : FVec Ideal S256x4096 .f32) (x1 : FVec Ideal S6x32x128x128 .f32) (x2 : FVec Ideal S1x4096 .f32) :
    S256x4096.Idx → EReal := fun y =>
  (∑ d : Fin 6, ∑ k : Fin 128, x0 (ix2 (y 0) (col (nbr (blockOf (y 1)) d) k)) * x1 (ix4 d (nbr (blockOf (y 1)) d) k (within (y 1))))
    + x2 (ix2 0 (y 1))

/-- The value the body stores into one column block: six products, at the static offsets `o₀ … o₅`, against six loaded weight
    blocks, added in order onto a zero tile, and the bias row broadcast down the rows. -/
def block (x0 : FVec Ideal S256x4096 .f32)
    (o0 : Nat) (h0 : S256x4096.Slices ![0, o0] S256x128) (w0 : FVec Ideal S1x1x128x128 .f32)
    (o1 : Nat) (h1 : S256x4096.Slices ![0, o1] S256x128) (w1 : FVec Ideal S1x1x128x128 .f32)
    (o2 : Nat) (h2 : S256x4096.Slices ![0, o2] S256x128) (w2 : FVec Ideal S1x1x128x128 .f32)
    (o3 : Nat) (h3 : S256x4096.Slices ![0, o3] S256x128) (w3 : FVec Ideal S1x1x128x128 .f32)
    (o4 : Nat) (h4 : S256x4096.Slices ![0, o4] S256x128) (w4 : FVec Ideal S1x1x128x128 .f32)
    (o5 : Nat) (h5 : S256x4096.Slices ![0, o5] S256x128) (w5 : FVec Ideal S1x1x128x128 .f32)
    (b : FVec Ideal S1x128 .f32) : FVec Ideal S256x128 .f32 :=
  addf (addf (addf (addf (addf (addf (addf (broadcast S256x128 (Scalar.ofBits (F := Ideal) .f32 0x00000000#32)) (prod x0 o0 h0 w0)) (prod x0 o1 h1 w1))
    (prod x0 o2 h2 w2)) (prod x0 o3 h3 w3)) (prod x0 o4 h4 w4)) (prod x0 o5 h5 w5))
    (broadcastTo S256x128 (shapeCast S1x128 b shapeCasts_S1x128_S1x128) broadcasts_S1x128_S256x128)

/-- The bias row broadcast down the rows, at an entry. -/
theorem bias_apply (b : FVec Ideal S1x128 .f32) (p : Fin 256) (q : Fin 128) :
    broadcastTo S256x128 (shapeCast S1x128 b shapeCasts_S1x128_S1x128) broadcasts_S1x128_S256x128 (ix2 p q) = b (ix2 0 q) := by
  rw [shapeCast_self, broadcastTo_apply b broadcasts_S1x128_S256x128 (ix2 p q) (ix2 0 q) (fun a => by
    match a with
    | ⟨0, _⟩ => show 0 = if (1 : Nat) = 1 then 0 else _; rw [if_pos rfl]
    | ⟨1, _⟩ => show q.val = if (128 : Nat) = 1 then 0 else q.val; rw [if_neg (by decide)])]

/-- Entry (`p`, `q`) of a stored block. -/
theorem block_apply (x0 : FVec Ideal S256x4096 .f32)
    (o0 : Nat) (h0 : S256x4096.Slices ![0, o0] S256x128) (w0 : FVec Ideal S1x1x128x128 .f32)
    (o1 : Nat) (h1 : S256x4096.Slices ![0, o1] S256x128) (w1 : FVec Ideal S1x1x128x128 .f32)
    (o2 : Nat) (h2 : S256x4096.Slices ![0, o2] S256x128) (w2 : FVec Ideal S1x1x128x128 .f32)
    (o3 : Nat) (h3 : S256x4096.Slices ![0, o3] S256x128) (w3 : FVec Ideal S1x1x128x128 .f32)
    (o4 : Nat) (h4 : S256x4096.Slices ![0, o4] S256x128) (w4 : FVec Ideal S1x1x128x128 .f32)
    (o5 : Nat) (h5 : S256x4096.Slices ![0, o5] S256x128) (w5 : FVec Ideal S1x1x128x128 .f32)
    (b : FVec Ideal S1x128 .f32) (l0 : o0 + 128 ≤ 4096) (l1 : o1 + 128 ≤ 4096) (l2 : o2 + 128 ≤ 4096) (l3 : o3 + 128 ≤ 4096) (l4 : o4 + 128 ≤ 4096) (l5 : o5 + 128 ≤ 4096) (p : Fin 256) (q : Fin 128) :
    block x0 o0 h0 w0 o1 h1 w1 o2 h2 w2 o3 h3 w3 o4 h4 w4 o5 h5 w5 b (ix2 p q)
      = (∑ d : Fin 6, ∑ k : Fin 128,
          x0 (ix2 p ⟨(![o0, o1, o2, o3, o4, o5] : Fin 6 → Nat) d + k.val, by
            have := k.isLt
            match d with
            | ⟨0, _⟩ => show o0 + _ < _; omega
            | ⟨1, _⟩ => show o1 + _ < _; omega
            | ⟨2, _⟩ => show o2 + _ < _; omega
            | ⟨3, _⟩ => show o3 + _ < _; omega
            | ⟨4, _⟩ => show o4 + _ < _; omega
            | ⟨5, _⟩ => show o5 + _ < _; omega⟩)
            * (![w0, w1, w2, w3, w4, w5] : Fin 6 → FVec Ideal S1x1x128x128 .f32) d (ix4 0 0 k q))
        + b (ix2 0 q) := by
  unfold block
  simp only [addf_apply, bias_apply, broadcast_apply]
  rw [prod_apply x0 o0 h0 l0, prod_apply x0 o1 h1 l1, prod_apply x0 o2 h2 l2, prod_apply x0 o3 h3 l3, prod_apply x0 o4 h4 l4,
    prod_apply x0 o5 h5 l5, Fin.sum_univ_six]
  show ((((((Ideal.ofBits .f32 0x00000000#32 + _) + _) + _) + _) + _) + _) + _ = _
  rw [Ideal.ofBits_zero_f32, zero_add]
  rfl

/-- A weight block loaded at the static position (`d`, `n`) of the staged weight, read at (`k`, `q`). -/
theorem ld_weight (x1 : Vec Ideal S6x32x128x128 .f32) (dn n : Nat)
    (i : ∀ a, (![dn, n, 0, 0] : Fin 4 → Nat) a + S1x1x128x128.size a ≤ S6x32x128x128.size a) (d : Fin 6) (b : Fin 32)
    (ed : dn = d.val) (en : n = b.val) (k q : Fin 128) :
    View.ld x1 (Rect.unit (s := S6x32x128x128) ![dn, n, 0, 0] S1x1x128x128.size i) (ix4 0 0 k q) = x1 (ix4 d b k q) := by
  show x1 _ = x1 _
  refine congrArg x1 (funext fun a => Fin.ext ?_)
  match a with
  | ⟨0, _⟩ => show dn + 1 * 0 = d.val; omega
  | ⟨1, _⟩ => show n + 1 * 0 = b.val; omega
  | ⟨2, _⟩ => show 0 + 1 * k.val = k.val; omega
  | ⟨3, _⟩ => show 0 + 1 * q.val = q.val; omega

/-- One summand of one product, with the static offset and block number recognised as those of input block `b`. -/
theorem summand_eq (X0 : Vec Ideal S256x4096 .f32) (x1 : Vec Ideal S6x32x128x128 .f32) (o dn n : Nat)
    (i : ∀ a, (![dn, n, 0, 0] : Fin 4 → Nat) a + S1x1x128x128.size a ≤ S6x32x128x128.size a) (d : Fin 6) (b : Fin 32)
    (ed : dn = d.val) (en : n = b.val) (eo : o = n * 128) (p : Fin 256) (k q : Fin 128) (h : o + k.val < 4096) :
    X0 (ix2 p ⟨o + k.val, h⟩) * View.ld x1 (Rect.unit (s := S6x32x128x128) ![dn, n, 0, 0] S1x1x128x128.size i) (ix4 0 0 k q)
      = X0 (ix2 p (col b k)) * x1 (ix4 d b k q) := by
  rw [ld_weight x1 dn n i d b ed en k q]
  have e : (⟨o + k.val, h⟩ : Fin 4096) = col b k := Fin.ext (by show o + k.val = b.val * 128 + k.val; omega)
  rw [e]

/-- The value stored into column block `j` is `tile` on that column block: the static offsets `o_d` and block numbers `n_d`
    are those of `j`'s six neighbours, and the bias row and the store sit at column `128 j`. -/
theorem block_tile (X0 : Vec Ideal S256x4096 .f32) (x1 : Vec Ideal S6x32x128x128 .f32) (x2 : Vec Ideal S1x4096 .f32) (j : Fin 32)
    (o0 : Nat) (h0 : S256x4096.Slices ![0, o0] S256x128) (n0 : Nat) (i0 : ∀ a, (![0, n0, 0, 0] : Fin 4 → Nat) a + S1x1x128x128.size a ≤ S6x32x128x128.size a)
    (o1 : Nat) (h1 : S256x4096.Slices ![0, o1] S256x128) (n1 : Nat) (i1 : ∀ a, (![1, n1, 0, 0] : Fin 4 → Nat) a + S1x1x128x128.size a ≤ S6x32x128x128.size a)
    (o2 : Nat) (h2 : S256x4096.Slices ![0, o2] S256x128) (n2 : Nat) (i2 : ∀ a, (![2, n2, 0, 0] : Fin 4 → Nat) a + S1x1x128x128.size a ≤ S6x32x128x128.size a)
    (o3 : Nat) (h3 : S256x4096.Slices ![0, o3] S256x128) (n3 : Nat) (i3 : ∀ a, (![3, n3, 0, 0] : Fin 4 → Nat) a + S1x1x128x128.size a ≤ S6x32x128x128.size a)
    (o4 : Nat) (h4 : S256x4096.Slices ![0, o4] S256x128) (n4 : Nat) (i4 : ∀ a, (![4, n4, 0, 0] : Fin 4 → Nat) a + S1x1x128x128.size a ≤ S6x32x128x128.size a)
    (o5 : Nat) (h5 : S256x4096.Slices ![0, o5] S256x128) (n5 : Nat) (i5 : ∀ a, (![5, n5, 0, 0] : Fin 4 → Nat) a + S1x1x128x128.size a ≤ S6x32x128x128.size a)
    (c : Nat) (ib : ∀ a, (![0, c] : Fin 2 → Nat) a + S1x128.size a ≤ S1x4096.size a)
    (is : ∀ a, (![0, c] : Fin 2 → Nat) a + S256x128.size a ≤ S256x4096.size a)
    (en0 : n0 = (nbr j 0).val) (eo0 : o0 = n0 * 128) (en1 : n1 = (nbr j 1).val) (eo1 : o1 = n1 * 128) (en2 : n2 = (nbr j 2).val) (eo2 : o2 = n2 * 128) (en3 : n3 = (nbr j 3).val) (eo3 : o3 = n3 * 128) (en4 : n4 = (nbr j 4).val) (eo4 : o4 = n4 * 128) (en5 : n5 = (nbr j 5).val) (eo5 : o5 = n5 * 128)
    (ec : c = j.val * 128) (p : Fin 256) (q : Fin 128) :
    block X0 o0 h0 (View.ld x1 (Rect.unit (s := S6x32x128x128) ![0, n0, 0, 0] S1x1x128x128.size i0))
        o1 h1 (View.ld x1 (Rect.unit (s := S6x32x128x128) ![1, n1, 0, 0] S1x1x128x128.size i1))
        o2 h2 (View.ld x1 (Rect.unit (s := S6x32x128x128) ![2, n2, 0, 0] S1x1x128x128.size i2))
        o3 h3 (View.ld x1 (Rect.unit (s := S6x32x128x128) ![3, n3, 0, 0] S1x1x128x128.size i3))
        o4 h4 (View.ld x1 (Rect.unit (s := S6x32x128x128) ![4, n4, 0, 0] S1x1x128x128.size i4))
        o5 h5 (View.ld x1 (Rect.unit (s := S6x32x128x128) ![5, n5, 0, 0] S1x1x128x128.size i5))
        (View.ld x2 (Rect.unit (s := S1x4096) ![0, c] S1x128.size ib)) (ix2 p q)
      = tile X0 x1 x2 ((Rect.unit (s := S256x4096) ![0, c] S256x128.size is).emb (ix2 p q)) := by
  have hj := j.isLt
  have hq := q.isLt
  have b0 := (nbr j 0).isLt; have b1 := (nbr j 1).isLt; have b2 := (nbr j 2).isLt; have b3 := (nbr j 3).isLt; have b4 := (nbr j 4).isLt; have b5 := (nbr j 5).isLt
  have hemb : (Rect.unit (s := S256x4096) ![0, c] S256x128.size is).emb (ix2 p q) = ix2 p ⟨c + q.val, by omega⟩ :=
    funext fun a => Fin.ext (by
      match a with
      | ⟨0, _⟩ => show 0 + 1 * p.val = p.val; omega
      | ⟨1, _⟩ => show c + 1 * q.val = c + q.val; omega)
  rw [hemb, block_apply X0 _ _ _ _ _ _ _ _ _ _ _ _ _ _ _ _ _ _ _ (by omega) (by omega) (by omega) (by omega) (by omega) (by omega)]
  unfold tile
  have hb : blockOf (⟨c + q.val, by omega⟩ : Fin 4096) = j := Fin.ext (by show (c + q.val) / 128 = j.val; omega)
  have hw : within (⟨c + q.val, by omega⟩ : Fin 4096) = q := Fin.ext (by show (c + q.val) % 128 = q.val; omega)
  show _ + _ = (∑ d : Fin 6, ∑ k : Fin 128, X0 (ix2 p (col (nbr (blockOf ⟨c + q.val, _⟩) d) k))
      * x1 (ix4 d (nbr (blockOf ⟨c + q.val, _⟩) d) k (within ⟨c + q.val, _⟩))) + x2 (ix2 0 ⟨c + q.val, _⟩)
  rw [hb, hw]
  congr 1
  · refine Finset.sum_congr rfl fun d _ => Finset.sum_congr rfl fun k _ => ?_
    match d with
    | ⟨0, _⟩ => exact summand_eq X0 x1 o0 0 n0 i0 0 (nbr j 0) rfl en0 eo0 p k q _
    | ⟨1, _⟩ => exact summand_eq X0 x1 o1 1 n1 i1 1 (nbr j 1) rfl en1 eo1 p k q _
    | ⟨2, _⟩ => exact summand_eq X0 x1 o2 2 n2 i2 2 (nbr j 2) rfl en2 eo2 p k q _
    | ⟨3, _⟩ => exact summand_eq X0 x1 o3 3 n3 i3 3 (nbr j 3) rfl en3 eo3 p k q _
    | ⟨4, _⟩ => exact summand_eq X0 x1 o4 4 n4 i4 4 (nbr j 4) rfl en4 eo4 p k q _
    | ⟨5, _⟩ => exact summand_eq X0 x1 o5 5 n5 i5 5 (nbr j 5) rfl en5 eo5 p k q _
  · show x2 _ = x2 _
    refine congrArg x2 (funext fun a => Fin.ext ?_)
    match a with
    | ⟨0, _⟩ => show 0 + 1 * 0 = 0; omega
    | ⟨1, _⟩ => show c + 1 * q.val = c + q.val; omega

/-- The same, with the column block read off the store's own column offset `c`: a store at a multiple of 128 is the store of column
    block `c / 128`. -/
theorem block_tile_at (X0 : Vec Ideal S256x4096 .f32) (x1 : Vec Ideal S6x32x128x128 .f32) (x2 : Vec Ideal S1x4096 .f32)
    (o0 : Nat) (h0 : S256x4096.Slices ![0, o0] S256x128) (n0 : Nat) (i0 : ∀ a, (![0, n0, 0, 0] : Fin 4 → Nat) a + S1x1x128x128.size a ≤ S6x32x128x128.size a)
    (o1 : Nat) (h1 : S256x4096.Slices ![0, o1] S256x128) (n1 : Nat) (i1 : ∀ a, (![1, n1, 0, 0] : Fin 4 → Nat) a + S1x1x128x128.size a ≤ S6x32x128x128.size a)
    (o2 : Nat) (h2 : S256x4096.Slices ![0, o2] S256x128) (n2 : Nat) (i2 : ∀ a, (![2, n2, 0, 0] : Fin 4 → Nat) a + S1x1x128x128.size a ≤ S6x32x128x128.size a)
    (o3 : Nat) (h3 : S256x4096.Slices ![0, o3] S256x128) (n3 : Nat) (i3 : ∀ a, (![3, n3, 0, 0] : Fin 4 → Nat) a + S1x1x128x128.size a ≤ S6x32x128x128.size a)
    (o4 : Nat) (h4 : S256x4096.Slices ![0, o4] S256x128) (n4 : Nat) (i4 : ∀ a, (![4, n4, 0, 0] : Fin 4 → Nat) a + S1x1x128x128.size a ≤ S6x32x128x128.size a)
    (o5 : Nat) (h5 : S256x4096.Slices ![0, o5] S256x128) (n5 : Nat) (i5 : ∀ a, (![5, n5, 0, 0] : Fin 4 → Nat) a + S1x1x128x128.size a ≤ S6x32x128x128.size a)
    (c : Nat) (ib : ∀ a, (![0, c] : Fin 2 → Nat) a + S1x128.size a ≤ S1x4096.size a)
    (is : ∀ a, (![0, c] : Fin 2 → Nat) a + S256x128.size a ≤ S256x4096.size a)
    (hc : c / 128 < 32) (ec : c = c / 128 * 128)
    (en0 : n0 = (c / 128) ^^^ mask 0) (eo0 : o0 = n0 * 128) (en1 : n1 = (c / 128) ^^^ mask 1) (eo1 : o1 = n1 * 128) (en2 : n2 = (c / 128) ^^^ mask 2) (eo2 : o2 = n2 * 128) (en3 : n3 = (c / 128) ^^^ mask 3) (eo3 : o3 = n3 * 128) (en4 : n4 = (c / 128) ^^^ mask 4) (eo4 : o4 = n4 * 128) (en5 : n5 = (c / 128) ^^^ mask 5) (eo5 : o5 = n5 * 128)
    (y : S256x128.Idx) :
    block X0 o0 h0 (View.ld x1 (Rect.unit (s := S6x32x128x128) ![0, n0, 0, 0] S1x1x128x128.size i0))
        o1 h1 (View.ld x1 (Rect.unit (s := S6x32x128x128) ![1, n1, 0, 0] S1x1x128x128.size i1))
        o2 h2 (View.ld x1 (Rect.unit (s := S6x32x128x128) ![2, n2, 0, 0] S1x1x128x128.size i2))
        o3 h3 (View.ld x1 (Rect.unit (s := S6x32x128x128) ![3, n3, 0, 0] S1x1x128x128.size i3))
        o4 h4 (View.ld x1 (Rect.unit (s := S6x32x128x128) ![4, n4, 0, 0] S1x1x128x128.size i4))
        o5 h5 (View.ld x1 (Rect.unit (s := S6x32x128x128) ![5, n5, 0, 0] S1x1x128x128.size i5))
        (View.ld x2 (Rect.unit (s := S1x4096) ![0, c] S1x128.size ib)) y
      = tile X0 x1 x2 ((Rect.unit (s := S256x4096) ![0, c] S256x128.size is).emb y) := by
  obtain ⟨p, q, rfl⟩ : ∃ (p : Fin 256) (q : Fin 128), y = ix2 p q := ⟨y 0, y 1, eq_ix2 y⟩
  exact block_tile X0 x1 x2 ⟨c / 128, hc⟩ o0 h0 n0 i0 o1 h1 n1 i1 o2 h2 n2 i2 o3 h3 n3 i3 o4 h4 n4 i4 o5 h5 n5 i5 c ib is en0 eo0 en1 eo1 en2 eo2 en3 eo3 en4 eo4 en5 eo5 ec p q

end Cert.Hypercube.Body

end
-- ==== Proof.KernelTile.lean ====
/-
  What the body leaves in its output tile is `tile` of the three staged blocks.

  The body writes the tile as 32 stores, one per 128-wide column block, and the stores tile the buffer. Each stored value is
  the six-product-plus-bias value of its column block (`Body.block`), which is `Body.tile` restricted to that block
  (`Body.block_tile_at`: the static offsets and block numbers of the store at column `c` are those of the six neighbours of
  column block `c / 128`). Stores that all agree with one function leave that function wherever they cover.
-/
import proofs.«133062_j58248346469061_2_alg».proof.Proof.BodyBlock

set_option maxRecDepth 16384

noncomputable section

open Idealize.ShloMosaic Idealize.ShloMosaic.ValueIdx

namespace Cert.Hypercube.KernelSide

open Cert.KernelIdeal Cert.KernelIdeal.Gen Cert.Hypercube Cert.Hypercube.Body

theorem hz : (![0, 0] : Fin 2 → Nat) = fun _ => 0 := funext fun a => by fin_cases a <;> rfl

/-- The tile after the body is `tile` of the staged blocks: each of the 32 stores, taken in turn, holds `tile` on its own
    column block (its offsets and block numbers are read off the store itself, and the few facts about them are decided),
    and together the stores cover the tile. -/
theorem out_eq_tile (x0 : Vec Ideal S256x4096 .f32) (x1 : Vec Ideal S6x32x128x128 .f32) (x2 : Vec Ideal S1x4096 .f32) :
    out0_3 (F := Ideal) x0 x1 x2 = tile x0 x1 x2 := by
  have e : View.ld x0 r0_0 = x0 := View.ld_unit_zero (S := S256x4096) hz _ x0
  funext y
  unfold out0_3
  refine (View.canon_apply_of_pieces (tile (View.ld x0 r0_0) x1 x2) _ ?_ y
    (cover0_3 _ _ _ _ _ _ _ _ _ _ _ _ _ _ _ _ _ _ _ _ _ _ _ _ _ _ _ _ _ _ _ _ y)).trans (by rw [e])
  repeat' (first
    | exact List.forall_mem_nil _
    | refine List.forall_mem_cons.mpr ⟨fun z => ?_, ?_⟩)
  all_goals exact block_tile_at _ x1 x2 _ (by decide) _ (by decide) _ (by decide) _ (by decide) _ (by decide) _ (by decide) _ (by decide) _ (by decide) _ (by decide) _ (by decide) _ (by decide) _ (by decide) _ (by decide) (by decide) (by decide) (by decide) (by decide) (by decide) (by decide) (by decide) (by decide) (by decide) (by decide) (by decide) (by decide) (by decide) (by decide) (by decide) z

end Cert.Hypercube.KernelSide

end
-- ==== Proof.KernelArray.lean ====
/-
  From the tiles to the whole output array.

  The grid has 16 points; point `t` stages rows `256 t … 256 t + 255` of `x`, the whole swapped-axes weight and the whole bias
  row, and writes back rows `256 t … 256 t + 255` of the output. The staged weight is the weight argument with its last two axes
  swapped, so entry [d, n, k, q] of the staged weight is `hw[d, n, q, k]`; the staged bias row [0, c] is `bias[c]`. Hence the
  tile point `t` writes back is rows `256 t …` of the layer `G x hw bias`, the 16 row blocks cover the array, and the array ends
  holding `G x hw bias`.
-/
import proofs.«133062_j58248346469061_2_alg».proof.Proof.KernelTile
import proofs.«133062_j58248346469061_2_alg».proof.Proof.Gen.KernelIdeal.Value
import Idealize.ShloMosaic.Lib.StableHlo.Run

set_option maxRecDepth 16384

noncomputable section

open Idealize.ShloMosaic Idealize.ShloMosaic.TcCoe Idealize.ShloMosaic.ValueIdx Idealize.SL.Sem
open Idealize.ShloMosaic.Pipeline (Dat)
open scoped BigOperators

namespace Cert.Hypercube.KernelSide

open Cert.KernelIdeal Cert.KernelIdeal.Gen Cert.KernelIdeal.Facts₀ Cert.KernelIdeal.Facts Cert.Hypercube Cert.Hypercube.Body

variable (m : (ℓ : Loc nD τ sig) → Buf (Elt Ideal) ℓ) (ρ : Dev nD → PrngReg)

/-- The index maps over the 16 grid points: the rows of `x` move with the output rows, every other block index is zero. -/
theorem idx_facts : ∀ t : Fin cfg0.N,
    win0_0.index t (0 : Fin 2) = win0_3.index t (0 : Fin 2) ∧ win0_0.index t (1 : Fin 2) = 0 ∧ win0_3.index t (1 : Fin 2) = 0
    ∧ win0_1.index t (0 : Fin 4) = 0 ∧ win0_1.index t (1 : Fin 4) = 0 ∧ win0_1.index t (2 : Fin 4) = 0 ∧ win0_1.index t (3 : Fin 4) = 0
    ∧ win0_2.index t (0 : Fin 2) = 0 ∧ win0_2.index t (1 : Fin 2) = 0 ∧ win0_3.index t (0 : Fin 2) ≤ 15 :=
  (by decide +kernel : ∀ t : Fin grid0.N, _)

/-- Every row block is some point's. -/
theorem idx_onto : ∀ q0 : Fin 16, ∃ t : Fin cfg0.N, win0_3.index t = ![q0.val, 0] :=
  (by decide +kernel : ∀ q0 : Fin 16, ∃ t : Fin grid0.N, win0_3.index t = ![q0.val, 0])

/-- The three arguments, as the arrays of extended reals they are. -/
abbrev argX (c : Dev nD) : (⟨2, ![4096, 4096]⟩ : Shape).Idx → EReal := m ((c : Thread nD τ).loc main_arg0)
abbrev argW (c : Dev nD) : (⟨4, ![6, 32, 128, 128]⟩ : Shape).Idx → EReal := m ((c : Thread nD τ).loc main_arg1)
abbrev argB (c : Dev nD) : (⟨1, ![4096]⟩ : Shape).Idx → EReal := m ((c : Thread nD τ).loc main_arg2)

/-- Point `t`'s block of `x` is rows `256 t …` of the argument. -/
theorem xblk_apply (c : Dev nD) (t : Fin cfg0.N) (p : Fin 256) (cc : Fin 4096) (h : win0_3.index t (0 : Fin 2) * 256 + p.val < 4096) :
    (iblk m c 0 t : Vec Ideal S256x4096 .f32) (ix2 p cc) = argX m c (ix2 ⟨win0_3.index t (0 : Fin 2) * 256 + p.val, h⟩ cc) := by
  obtain ⟨e0, e1, -⟩ := idx_facts t
  unfold iblk
  rw [View.read_apply]
  show V m c main_arg0 _ = _
  rw [V_main_arg0]
  show m ((c : Thread nD τ).loc main_arg0) _ = m ((c : Thread nD τ).loc main_arg0) _
  congr 1
  funext a
  apply Fin.ext
  match a with
  | ⟨0, _⟩ => show win0_0.index t (0 : Fin 2) * 256 + 1 * p.val = win0_3.index t (0 : Fin 2) * 256 + p.val; omega
  | ⟨1, _⟩ => show win0_0.index t (1 : Fin 2) * 4096 + 1 * cc.val = cc.val; omega

/-- The staged weight is the weight argument with its last two axes swapped. -/
theorem wblk_apply (c : Dev nD) (t : Fin cfg0.N) (d : Fin 6) (n : Fin 32) (k q : Fin 128) :
    (iblk m c 1 t : Vec Ideal S6x32x128x128 .f32) (ix4 d n k q) = argW m c (ix4 d n q k) := by
  obtain ⟨-, -, -, e0, e1, e2, e3, -⟩ := idx_facts t
  have e : (V m c main_v0 : S6x32x128x128.Idx → EReal)
      = transpose S6x32x128x128 [0, 1, 3, 2] (m ((c : Thread nD τ).loc main_arg1)) Facts₀.transposes_S6x32x128x128_S6x32x128x128_0_1_3_2 := by
    dsimp only [Gen.V, Gen.hostOps0]; after_results; try rfl
  unfold iblk
  rw [View.read_apply]
  show V m c main_v0 _ = _
  have hi : ((cfg0.win 1).blk t).view.emb (ix4 d n k q) = ix4 d n k q := by
    funext a
    apply Fin.ext
    match a with
    | ⟨0, _⟩ => show win0_1.index t (0 : Fin 4) * 6 + 1 * d.val = d.val; omega
    | ⟨1, _⟩ => show win0_1.index t (1 : Fin 4) * 32 + 1 * n.val = n.val; omega
    | ⟨2, _⟩ => show win0_1.index t (2 : Fin 4) * 128 + 1 * k.val = k.val; omega
    | ⟨3, _⟩ => show win0_1.index t (3 : Fin 4) * 128 + 1 * q.val = q.val; omega
  rw [hi, e, transpose_apply [0, 1, 3, 2] _ _ (ix4 d n k q) (ix4 d n q k) (fun b => by
    match b with
    | ⟨0, _⟩ => rfl
    | ⟨1, _⟩ => rfl
    | ⟨2, _⟩ => rfl
    | ⟨3, _⟩ => rfl)]

/-- The staged bias row is the bias argument. -/
theorem bblk_apply (c : Dev nD) (t : Fin cfg0.N) (cc : Fin 4096) :
    (iblk m c 2 t : Vec Ideal S1x4096 .f32) (ix2 0 cc) = argB m c (ix1 cc) := by
  obtain ⟨-, -, -, -, -, -, -, e0, e1, -⟩ := idx_facts t
  have e : (V m c main_v1 : S1x4096.Idx → EReal)
      = shapeCast S1x4096 (m ((c : Thread nD τ).loc main_arg2)) Facts₀.shapeCasts_S4096_S1x4096 := by
    dsimp only [Gen.V, Gen.hostOps0]; after_results; try rfl
  unfold iblk
  rw [View.read_apply]
  show V m c main_v1 _ = _
  have hi : ((cfg0.win 2).blk t).view.emb (ix2 0 cc) = ix2 0 cc := by
    funext a
    apply Fin.ext
    match a with
    | ⟨0, _⟩ => show win0_2.index t (0 : Fin 2) * 1 + 1 * 0 = 0; omega
    | ⟨1, _⟩ => show win0_2.index t (1 : Fin 2) * 4096 + 1 * cc.val = cc.val; omega
  rw [hi, e, shapeCast_apply _ Facts₀.shapeCasts_S4096_S1x4096 (ix2 0 cc) (ix1 cc) (by
    rw [Shape.rowMajor_val_one, Shape.rowMajor_val_two]
    show cc.val = 0 * 4096 + cc.val; omega)]

/-- A tile whose three staged blocks are rows `r₀ …` of `X`, the weight `W` with its last two axes swapped, and the bias row `B`,
    is rows `r₀ …` of the layer of `X`, `W`, `B`. -/
theorem tile_of_blocks (x0 : Vec Ideal S256x4096 .f32) (x1 : Vec Ideal S6x32x128x128 .f32) (x2 : Vec Ideal S1x4096 .f32)
    (X : (⟨2, ![4096, 4096]⟩ : Shape).Idx → EReal) (W : (⟨4, ![6, 32, 128, 128]⟩ : Shape).Idx → EReal)
    (B : (⟨1, ![4096]⟩ : Shape).Idx → EReal) (r0 : Nat)
    (hx : ∀ (p : Fin 256) (cc : Fin 4096) (h : r0 + p.val < 4096), x0 (ix2 p cc) = X (ix2 ⟨r0 + p.val, h⟩ cc))
    (hw : ∀ (d : Fin 6) (n : Fin 32) (k q : Fin 128), x1 (ix4 d n k q) = W (ix4 d n q k))
    (hb : ∀ cc : Fin 4096, x2 (ix2 0 cc) = B (ix1 cc))
    (y : S256x4096.Idx) (h : r0 + (y 0).val < 4096) :
    tile x0 x1 x2 y = G X W B (ix2 ⟨r0 + (y 0).val, h⟩ (y 1)) := by
  show (∑ d : Fin 6, ∑ k : Fin 128, x0 (ix2 (y 0) (col (nbr (blockOf (y 1)) d) k))
        * x1 (ix4 d (nbr (blockOf (y 1)) d) k (within (y 1)))) + x2 (ix2 0 (y 1))
    = (∑ d : Fin 6, term X W ⟨r0 + (y 0).val, h⟩ (blockOf (y 1)) (within (y 1)) d) + B (ix1 (y 1))
  rw [hb (y 1)]
  refine congrArg (· + B (ix1 (y 1))) (Finset.sum_congr rfl fun d _ => ?_)
  unfold term
  refine Finset.sum_congr rfl fun k _ => ?_
  rw [hx (y 0) _ h, hw]

/-- The tile of point `t` is rows `256 t …` of the layer. -/
theorem tile_eq_G (c : Dev nD) (t : Fin cfg0.N) (y : S256x4096.Idx) (h : win0_3.index t (0 : Fin 2) * 256 + (y 0).val < 4096) :
    tile (iblk m c 0 t) (iblk m c 1 t) (iblk m c 2 t) y
      = G (argX m c) (argW m c) (argB m c) (ix2 ⟨win0_3.index t (0 : Fin 2) * 256 + (y 0).val, h⟩ (y 1)) :=
  tile_of_blocks (iblk m c 0 t) (iblk m c 1 t) (iblk m c 2 t) (argX m c) (argW m c) (argB m c) (win0_3.index t (0 : Fin 2) * 256)
    (fun p cc h' => xblk_apply m c t p cc h') (wblk_apply m c t) (bblk_apply m c t) y h

/-- WHAT POINT `t` WRITES BACK is block `t` of the layer of the arguments. -/
theorem flushed_eq (c : Dev nD) (t : Fin cfg0.N) :
    (dats m 0 c).flushed 3 t = ((cfg0.win 3).blk t).view.read (Elt Ideal) (G (argX m c) (argW m c) (argB m c)) := by
  obtain ⟨-, -, e1, -, -, -, -, -, -, e15⟩ := idx_facts t
  rw [Cert.KernelIdeal.Value.flushed3, out_eq_tile]
  funext y
  have hy : (y 0).val < 256 := (y 0).isLt
  show tile (iblk m c 0 t) (iblk m c 1 t) (iblk m c 2 t) y = G (argX m c) (argW m c) (argB m c) (((cfg0.win 3).blk t).view.emb y)
  rw [tile_eq_G m c t y (by omega)]
  congr 1
  funext a
  apply Fin.ext
  match a with
  | ⟨0, _⟩ => show win0_3.index t (0 : Fin 2) * 256 + (y 0).val = win0_3.index t (0 : Fin 2) * 256 + 1 * (y 0).val; omega
  | ⟨1, _⟩ => show (y 1).val = win0_3.index t (1 : Fin 2) * 4096 + 1 * (y 1).val; omega

/-- An index of the array is in point `t`'s block iff each coordinate is in the block's range on its axis. -/
theorem mem_blk (t : Fin cfg0.N) (i : S4096x4096.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v2).slice (win0_3.rect t)).set ↔ _
  rw [View.set_slice_whole, Rect.mem_set_unit]
  exact Iff.rfl

/-- The 16 row blocks cover the array. -/
theorem covered (i : S4096x4096.Idx) : ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := idx_onto ⟨(i 0).val / 256, by omega⟩
  have q0 : win0_3.index t (0 : Fin 2) = (i 0).val / 256 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 4096 ≤ (i 1).val ∧ (i 1).val < win0_3.index t (1 : Fin 2) * 4096 + 4096; omega

/-- THE ARRAY after the run is the layer of the arguments. -/
theorem final (c : Dev nD) : (dats m 0 c).arrAt 3 cfg0.N = G (argX m c) (argW m c) (argB m c) :=
  (dats m 0 c).arrAt_eq_of_cover 3 (G (argX m c) (argW m c) (argB m c)) (fun t _ => flushed_eq m c t) covered

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v2) = G (argX m c) (argW m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.Hypercube.KernelSide

end
-- ==== Proof.BlockSum.lean ====
/-
  Why a product with the dense block matrix is six small products.

  A row of `x` against row `128 a + o` of the dense matrix is a sum over all 4096 input features. Cut the features into their 32
  blocks: the inner sum over a block `b` is zero unless `b` is one of `a`'s six neighbours (every weight in that block is zero,
  and a product with zero is zero on the extended reals too), and for `b` the `d`-th neighbour it is `term … d`. The six
  neighbours are six different blocks, so the sum over the 32 blocks is the sum over the six `d`.
-/
import proofs.«133062_j58248346469061_2_alg».proof.Proof.Hypercube

noncomputable section

open Idealize.ShloMosaic Idealize.ShloMosaic.ValueIdx
open scoped BigOperators

namespace Cert.Hypercube

/-- A feature of the 4096-wide axis is its block together with its place in the block. -/
def colEquiv : Fin 32 × Fin 128 ≃ Fin 4096 where
  toFun p := col p.1 p.2
  invFun c := (blockOf c, within c)
  left_inv p := by
    obtain ⟨n, k⟩ := p
    have hn := n.isLt; have hk := k.isLt
    apply Prod.ext <;> apply Fin.ext <;> simp only [col, blockOf, within] <;> omega
  right_inv c := by
    apply Fin.ext; simp only [col, blockOf, within]; omega

/-- A sum over the 4096 features is the sum over the blocks of the sums inside each block. -/
theorem sum_cols (g : Fin 4096 → EReal) : ∑ c : Fin 4096, g c = ∑ b : Fin 32, ∑ i : Fin 128, g (col b i) := by
  rw [← Equiv.sum_comp colEquiv g, Fintype.sum_prod_type]; rfl

/-- The block of the dense matrix that carries `a`'s `d`-th neighbour into `a` is `hw[d]`'s block for that neighbour: no later
    overwrite touches it, because the later ones land on the other neighbours. -/
theorem dense_nbr (hw : (⟨4, ![6, 32, 128, 128]⟩ : Shape).Idx → EReal) (a : Fin 32) (d : Fin 6) (o i : Fin 128) :
    dense hw a (nbr a d) o i = hw (ix4 d (nbr a d) o i) := by
  unfold dense
  simp only [eq_nbr_nbr_iff]
  fin_cases d <;> simp <;> rfl

/-- A block that is none of `a`'s neighbours is never written: it keeps its zeros. -/
theorem dense_of_not_nbr (hw : (⟨4, ![6, 32, 128, 128]⟩ : Shape).Idx → EReal) (a b : Fin 32) (o i : Fin 128)
    (h : ∀ d, b ≠ nbr a d) : dense hw a b o i = 0 := by
  unfold dense
  rw [if_neg (fun e => h 5 ((eq_nbr_comm a b 5).mp e)), if_neg (fun e => h 4 ((eq_nbr_comm a b 4).mp e)),
    if_neg (fun e => h 3 ((eq_nbr_comm a b 3).mp e)), if_neg (fun e => h 2 ((eq_nbr_comm a b 2).mp e)),
    if_neg (fun e => h 1 ((eq_nbr_comm a b 1).mp e)), if_neg (fun e => h 0 ((eq_nbr_comm a b 0).mp e))]

/-- A row of `x` against row (`a`, `o`) of the dense matrix, summed block by block, is the six neighbour terms. -/
theorem dense_row_sum (x : (⟨2, ![4096, 4096]⟩ : Shape).Idx → EReal) (hw : (⟨4, ![6, 32, 128, 128]⟩ : Shape).Idx → EReal)
    (r : Fin 4096) (a : Fin 32) (o : Fin 128) :
    ∑ b : Fin 32, ∑ i : Fin 128, x (ix2 r (col b i)) * dense hw a b o i = ∑ d : Fin 6, term x hw r a o d := by
  have h0 : ∀ b : Fin 32, b ∉ Finset.univ.image (nbr a) →
      ∑ i : Fin 128, x (ix2 r (col b i)) * dense hw a b o i = 0 := by
    intro b hb
    have hne : ∀ d, b ≠ nbr a d := fun d e => hb (Finset.mem_image.mpr ⟨d, Finset.mem_univ d, e.symm⟩)
    refine Finset.sum_eq_zero fun i _ => ?_
    rw [dense_of_not_nbr hw a b o i hne, mul_zero]
  calc ∑ b : Fin 32, ∑ i : Fin 128, x (ix2 r (col b i)) * dense hw a b o i
      = ∑ b ∈ Finset.univ.image (nbr a), ∑ i : Fin 128, x (ix2 r (col b i)) * dense hw a b o i :=
        (Finset.sum_subset (Finset.subset_univ _) (fun b _ hb => h0 b hb)).symm
    _ = ∑ d : Fin 6, ∑ i : Fin 128, x (ix2 r (col (nbr a d) i)) * dense hw a (nbr a d) o i :=
        Finset.sum_image (fun d _ d' _ e => nbr_injective a e)
    _ = ∑ d : Fin 6, term x hw r a o d := by
        refine Finset.sum_congr rfl fun d _ => ?_
        unfold term
        exact Finset.sum_congr rfl fun i _ => by rw [dense_nbr]

end Cert.Hypercube

end
-- ==== Proof.LibScatterSet.lean ====
/-
  A scatter whose body returns the update (`x.at[idx].set(upd)`), read at one index of the result.

  The host's scatter is a left fold over the update indices in row-major order: each update index `j` whose result index
  `resultIdx? j idx` lies inside the operand overwrites that element with `upd j`, the others are dropped. Two readings
  follow, for any shapes and dimension numbers:

  * `scatter_set_apply_hit`: if update index `j` lands at `i'` and it is the only one that does, the result at `i'` is `upd j`;
  * `scatter_set_apply_miss`: if no update index lands at `i'`, the result at `i'` is the operand's element.

  Both come from the same two facts about a left fold of "overwrite at the place `res n` with `v n`" over a list.
-/
import Idealize.ShloMosaic.PureOps.ShapeOps

namespace Cert.LibScatterSet

open Idealize.ShloMosaic

section Fold
variable {α ι κ : Type} [DecidableEq ι]

/-- One step of the fold: entry `n` overwrites the place `res n` (when there is one) with `v n`. -/
def step (res : κ → Option ι) (v : κ → α) (r : ι → α) (n : κ) : ι → α :=
  match res n with
  | some i => fun i' => if i' = i then v n else r i'
  | none => r

theorem step_of_ne (res : κ → Option ι) (v : κ → α) (r : ι → α) (n : κ) (i' : ι) (h : res n ≠ some i') :
    step res v r n i' = r i' := by
  unfold step
  cases hr : res n with
  | none => rfl
  | some i =>
    have hne : i' ≠ i := fun e => h (by rw [hr, e])
    simp only [if_neg hne]

theorem step_of_eq (res : κ → Option ι) (v : κ → α) (r : ι → α) (n : κ) (i' : ι) (h : res n = some i') :
    step res v r n i' = v n := by
  unfold step
  rw [h]
  simp only [if_true]

/-- A place no entry of the list writes keeps its starting value. -/
theorem foldl_step_of_not_mem (res : κ → Option ι) (v : κ → α) (L : List κ) (x : ι → α) (i' : ι)
    (h : ∀ n ∈ L, res n ≠ some i') : L.foldl (step res v) x i' = x i' := by
  induction L generalizing x with
  | nil => rfl
  | cons m L ih =>
    rw [List.foldl_cons, ih (step res v x m) (fun n hn => h n (List.mem_cons_of_mem _ hn))]
    exact step_of_ne res v x m i' (h m (List.mem_cons_self ..))

/-- A place exactly one entry `n` of the list writes ends with that entry's value. -/
theorem foldl_step_of_mem (res : κ → Option ι) (v : κ → α) (L : List κ) (x : ι → α) (i' : ι) (n : κ)
    (hn : n ∈ L) (hres : res n = some i') (huniq : ∀ n' ∈ L, res n' = some i' → n' = n) :
    L.foldl (step res v) x i' = v n := by
  induction L generalizing x with
  | nil => exact absurd hn (List.not_mem_nil)
  | cons m L ih =>
    rw [List.foldl_cons]
    by_cases hL : ∃ n' ∈ L, res n' = some i'
    · obtain ⟨n', hn', hr'⟩ := hL
      have : n' = n := huniq n' (List.mem_cons_of_mem _ hn') hr'
      subst this
      exact ih (step res v x m) hn' (fun k hk => huniq k (List.mem_cons_of_mem _ hk))
    · have hnot : ∀ k ∈ L, res k ≠ some i' := fun k hk hr => hL ⟨k, hk, hr⟩
      rw [foldl_step_of_not_mem res v L _ i' hnot]
      have hm : n = m := by
        rcases List.mem_cons.1 hn with h | h
        · exact h
        · exact absurd hres (hnot n h)
      subst hm
      exact step_of_eq res v x n i' hres

end Fold

section Scatter
variable {s si u : Shape} {α : Type} {w : Nat}

/-- The host's scatter with the body "return the update" is the fold of `step`. -/
theorem scatter_set_eq_foldl (d : ScatterDims s si u) (x : s.Idx → α) (idx : IVec si w) (upd : u.Idx → α) :
    Host.scatter d (fun _ b => b) x idx upd
      = (List.finRange u.numel).foldl
          (step (fun n => d.resultIdx? (u.rowMajor.symm n) idx) (fun n => upd (u.rowMajor.symm n))) x := by
  unfold Host.scatter
  congr 1
  funext r n
  unfold step
  dsimp only
  cases d.resultIdx? (u.rowMajor.symm n) idx <;> rfl

/-- THE SCATTER READ AT A WRITTEN PLACE: if update index `j` lands at `i'` and no other update index does, the result
    at `i'` is `upd j`. -/
theorem scatter_set_apply_hit (d : ScatterDims s si u) (x : s.Idx → α) (idx : IVec si w) (upd : u.Idx → α)
    (j : u.Idx) (i' : s.Idx) (hj : d.resultIdx? j idx = some i')
    (huniq : ∀ j', d.resultIdx? j' idx = some i' → j' = j) :
    Host.scatter d (fun _ b => b) x idx upd i' = upd j := by
  rw [scatter_set_eq_foldl]
  have h := foldl_step_of_mem (fun n => d.resultIdx? (u.rowMajor.symm n) idx) (fun n => upd (u.rowMajor.symm n))
    (List.finRange u.numel) x i' (u.rowMajor j) (List.mem_finRange _)
    (by simp only [Equiv.symm_apply_apply]; exact hj)
    (fun n' _ hr => by
      have := huniq _ hr
      rw [← this, Equiv.apply_symm_apply])
  rw [h, Equiv.symm_apply_apply]

/-- THE SCATTER READ AT AN UNWRITTEN PLACE: if no update index lands at `i'`, the result at `i'` is the operand's
    element. -/
theorem scatter_set_apply_miss (d : ScatterDims s si u) (x : s.Idx → α) (idx : IVec si w) (upd : u.Idx → α)
    (i' : s.Idx) (h : ∀ j, d.resultIdx? j idx ≠ some i') :
    Host.scatter d (fun _ b => b) x idx upd i' = x i' := by
  rw [scatter_set_eq_foldl]
  exact foldl_step_of_not_mem _ _ _ x i' (fun n _ => h _)

end Scatter

end Cert.LibScatterSet
-- ==== Proof.ScatterBlock.lean ====
/-
  The scatter of 32 blocks `upd[e, o, i]` (shape [32, 128, 128]) into a [32, 32, 128, 128] operand at the block positions
  `(idx[e, 0], idx[e, 1])` — `w.at[idx[:, 0], idx[:, 1]].set(upd)` — read at an index.

  Dimension numbers: update window axes [1, 2], inserted operand axes [0, 1], the two index components go to operand
  axes 0 and 1, and the index vector lies along axis 1 of the indices. Update index `(e, o, i)` therefore lands at
  `(idx[e, 0], idx[e, 1], o, i)` when the two components are in range.
-/
import Idealize.ShloMosaic.Lib.ValueIdx
import Idealize.ShloMosaic.Lib.Pipeline.Value
import proofs.«133062_j58248346469061_2_alg».proof.Proof.LibScatterSet

namespace Cert.ScatterBlock

open Idealize.ShloMosaic Idealize.ShloMosaic.ValueIdx

/-- The operand's shape. -/
abbrev S4 : Shape := ⟨4, ![32, 32, 128, 128]⟩
/-- The scatter indices' shape. -/
abbrev S2 : Shape := ⟨2, ![32, 2]⟩
/-- One column of the scatter indices, as the program builds it. -/
abbrev S21 : Shape := ⟨2, ![32, 1]⟩
/-- The updates' shape. -/
abbrev S3 : Shape := ⟨3, ![32, 128, 128]⟩

/-- The dimension numbers, their conditions `wf` decided on the literal shapes by whoever has them. -/
abbrev blockDims (wf : ScatterDims.WF S4 S2 S3 [1, 2] [0, 1] [0, 1] 1) : ScatterDims S4 S2 S3 where
  updateWindowDims := [1, 2]
  insertedWindowDims := [0, 1]
  scatterDimsToOperandDims := [0, 1]
  indexVectorDim := 1
  wf := wf

section
variable (wf : ScatterDims.WF S4 S2 S3 [1, 2] [0, 1] [0, 1] 1) {w : Nat} (idx : IVec S2 w) (j : S3.Idx)

theorem start0 : (blockDims wf).start j idx 0 = (idx (ix2 (j 0) 0)).toInt := by
  unfold ScatterDims.start
  rw [dif_pos (show (0 : Fin 4) ∈ (blockDims wf).scatterDimsToOperandDims from (by decide : (0 : Fin 4) ∈ ([0, 1] : List (Fin 4))))]
  congr 2
  funext b; refine Fin.ext ?_
  match b with
  | ⟨0, _⟩ => rfl
  | ⟨1, _⟩ => rfl

theorem start1 : (blockDims wf).start j idx 1 = (idx (ix2 (j 0) 1)).toInt := by
  unfold ScatterDims.start
  rw [dif_pos (show (1 : Fin 4) ∈ (blockDims wf).scatterDimsToOperandDims from (by decide : (1 : Fin 4) ∈ ([0, 1] : List (Fin 4))))]
  congr 2
  funext b; refine Fin.ext ?_
  match b with
  | ⟨0, _⟩ => rfl
  | ⟨1, _⟩ => rfl

theorem start2 : (blockDims wf).start j idx 2 = 0 := by
  unfold ScatterDims.start
  rw [dif_neg (show ¬ (2 : Fin 4) ∈ (blockDims wf).scatterDimsToOperandDims from (by decide : ¬ (2 : Fin 4) ∈ ([0, 1] : List (Fin 4))))]

theorem start3 : (blockDims wf).start j idx 3 = 0 := by
  unfold ScatterDims.start
  rw [dif_neg (show ¬ (3 : Fin 4) ∈ (blockDims wf).scatterDimsToOperandDims from (by decide : ¬ (3 : Fin 4) ∈ ([0, 1] : List (Fin 4))))]

theorem window0 : (blockDims wf).window j 0 = 0 := by
  unfold ScatterDims.window
  rw [dif_neg (show ¬ (0 : Fin 4) ∈ (blockDims wf).sKept from (by decide : ¬ (0 : Fin 4) ∈ S4.kept [0, 1]))]

theorem window1 : (blockDims wf).window j 1 = 0 := by
  unfold ScatterDims.window
  rw [dif_neg (show ¬ (1 : Fin 4) ∈ (blockDims wf).sKept from (by decide : ¬ (1 : Fin 4) ∈ S4.kept [0, 1]))]

theorem window2 : (blockDims wf).window j 2 = (j 1).val := by
  unfold ScatterDims.window
  rw [dif_pos (show (2 : Fin 4) ∈ (blockDims wf).sKept from (by decide : (2 : Fin 4) ∈ S4.kept [0, 1]))]
  rfl

theorem window3 : (blockDims wf).window j 3 = (j 2).val := by
  unfold ScatterDims.window
  rw [dif_pos (show (3 : Fin 4) ∈ (blockDims wf).sKept from (by decide : (3 : Fin 4) ∈ S4.kept [0, 1]))]
  rfl

end

section
variable (wf : ScatterDims.WF S4 S2 S3 [1, 2] [0, 1] [0, 1] 1) {w : Nat} (idx : IVec S2 w)

/-- Update index `(e, o, i)` lands at `(a, b, o, i)` when the two index components at `e` read `a` and `b`. -/
theorem resultIdx?_eq (e : Fin 32) (o i : Fin 128) (a b : Fin 32)
    (h0 : (idx (ix2 e 0)).toInt = (a.val : Int)) (h1 : (idx (ix2 e 1)).toInt = (b.val : Int)) :
    (blockDims wf).resultIdx? (ix3 e o i) idx = some (ix4 a b o i) := by
  have H : ∀ a' : Fin 4, (blockDims wf).start (ix3 e o i) idx a' + ((blockDims wf).window (ix3 e o i) a' : Int)
      = (((ix4 a b o i : S4.Idx) a').val : Int) := by
    intro a'
    match a' with
    | ⟨0, _⟩ =>
      show (blockDims wf).start (ix3 e o i) idx 0 + ((blockDims wf).window (ix3 e o i) 0 : Int) = (a.val : Int)
      rw [start0, window0, Nat.cast_zero, add_zero]; exact h0
    | ⟨1, _⟩ =>
      show (blockDims wf).start (ix3 e o i) idx 1 + ((blockDims wf).window (ix3 e o i) 1 : Int) = (b.val : Int)
      rw [start1, window1, Nat.cast_zero, add_zero]; exact h1
    | ⟨2, _⟩ =>
      show (blockDims wf).start (ix3 e o i) idx 2 + ((blockDims wf).window (ix3 e o i) 2 : Int) = (o.val : Int)
      rw [start2, window2, zero_add]
    | ⟨3, _⟩ =>
      show (blockDims wf).start (ix3 e o i) idx 3 + ((blockDims wf).window (ix3 e o i) 3 : Int) = (i.val : Int)
      rw [start3, window3, zero_add]
  unfold ScatterDims.resultIdx?
  rw [dif_pos (fun a' => by
    rw [H a']; exact ⟨Int.natCast_nonneg _, Int.ofNat_lt.2 ((ix4 a b o i : S4.Idx) a').isLt⟩)]
  congr 1
  funext a'
  apply Fin.ext
  show (_ : Int).toNat = _
  rw [H a', Int.toNat_natCast]

/-- THE BLOCK SCATTER READ AT AN INDEX. When row `e` of the indices reads `(ρ e, e)`, block `(a, b)` of the result is
    the update's block `b` if `a = ρ b`, and the operand's block otherwise. -/
theorem scatter_block_apply {α : Type} (x : S4.Idx → α) (upd : S3.Idx → α) (ρ : Fin 32 → Fin 32)
    (h0 : ∀ e : Fin 32, (idx (ix2 e 0)).toInt = ((ρ e).val : Int))
    (h1 : ∀ e : Fin 32, (idx (ix2 e 1)).toInt = (e.val : Int))
    (a b : Fin 32) (o i : Fin 128) :
    Host.scatter (blockDims wf) (fun _ b => b) x idx upd (ix4 a b o i)
      = if a = ρ b then upd (ix3 b o i) else x (ix4 a b o i) := by
  have R : ∀ j : S3.Idx, (blockDims wf).resultIdx? j idx = some (ix4 (ρ (j 0)) (j 0) (j 1) (j 2)) := by
    intro j
    exact (congrArg (fun j => (blockDims wf).resultIdx? j idx) (eq_ix3 j)).trans
      (resultIdx?_eq wf idx (j 0) (j 1) (j 2) (ρ (j 0)) (j 0) (h0 _) (h1 _))
  by_cases hab : a = ρ b
  · rw [if_pos hab]
    refine Cert.LibScatterSet.scatter_set_apply_hit _ x idx upd (ix3 b o i) _ ?_ ?_
    · rw [R, hab]; rfl
    · intro j' hj'
      rw [R] at hj'
      have E := Option.some.inj hj'
      have e1 : j' 0 = b := congrFun E 1
      have e2 : j' 1 = o := congrFun E 2
      have e3 : j' 2 = i := congrFun E 3
      rw [eq_ix3 j', e1, e2, e3]; rfl
  · rw [if_neg hab]
    refine Cert.LibScatterSet.scatter_set_apply_miss _ x idx upd _ ?_
    intro j' hj'
    rw [R] at hj'
    have E := Option.some.inj hj'
    have e0 : ρ (j' 0) = a := congrFun E 0
    have e1 : j' 0 = b := congrFun E 1
    exact hab (by rw [← e0, e1])

end

section
variable {w : Nat} (hc : Shape.Concatenates [S21, S21] S2 1) (c0 c1 : S21.Idx → BitVec w)

/-- The two index columns joined along axis 1: component 0 of row `e` is the first column's entry `e`. -/
theorem cols_apply0 (e : Fin 32) :
    concatenate S2 1 [⟨S21, c0⟩, ⟨S21, c1⟩] hc (ix2 e 0) = c0 (ix2 e 0) :=
  concatenate_pair_apply_left (t := S2) (s₁ := S21) (s₂ := S21) (1 : Fin 2) c0 c1 hc (ix2 e 0 : S2.Idx) rfl
    (ix2 e 0 : S21.Idx) (fun b => match b with | ⟨0, _⟩ => rfl | ⟨1, _⟩ => rfl)

/-- Component 1 of row `e` is the second column's entry `e`. -/
theorem cols_apply1 (e : Fin 32) :
    concatenate S2 1 [⟨S21, c0⟩, ⟨S21, c1⟩] hc (ix2 e 1) = c1 (ix2 e 0) :=
  concatenate_pair_apply_right (t := S2) (s₁ := S21) (s₂ := S21) (1 : Fin 2) c0 c1 hc (ix2 e 1 : S2.Idx) rfl rfl
    (ix2 e 0 : S21.Idx) (fun b => match b with | ⟨0, _⟩ => fun _ => rfl | ⟨1, _⟩ => fun h => absurd rfl h) rfl

/-- ONE STAGE: the block scatter at the indices whose two columns read `ρ e` and `e` in row `e`. -/
theorem stage_apply (wf : ScatterDims.WF S4 S2 S3 [1, 2] [0, 1] [0, 1] 1) {α : Type}
    (x : S4.Idx → α) (upd : S3.Idx → α) (ρ : Fin 32 → Fin 32)
    (h0 : ∀ e : Fin 32, (c0 (ix2 e 0)).toInt = ((ρ e).val : Int))
    (h1 : ∀ e : Fin 32, (c1 (ix2 e 0)).toInt = (e.val : Int))
    (a b : Fin 32) (o i : Fin 128) :
    Host.scatter (blockDims wf) (fun _ b => b) x (concatenate S2 1 [⟨S21, c0⟩, ⟨S21, c1⟩] hc) upd (ix4 a b o i)
      = if a = ρ b then upd (ix3 b o i) else x (ix4 a b o i) :=
  scatter_block_apply wf _ x upd ρ (fun e => by rw [cols_apply0]; exact h0 e) (fun e => by rw [cols_apply1]; exact h1 e)
    a b o i

end

/-! ## The index columns' entries: a wrapped iota, and a wrapped iota xor a one-bit mask -/

/-- "Add 32 if negative" leaves `e` in 0..31 alone. -/
theorem wrap_iota : ∀ e : Fin 32,
    (Scalar.select (IntOp.cmpi .slt (BitVec.ofNat 32 e.val) 0#32) (IntOp.addi (BitVec.ofNat 32 e.val) 32#32)
      (BitVec.ofNat 32 e.val)).toInt = (e.val : Int) := by decide

/-! ## A flat position in a [32, 128, 128] array, split back into block, row and column -/

theorem unflat1 (b : Fin 32) (o i : Fin 128) : ((b.val * 128 + o.val) * 128 + i.val) / 16384 % 32 = b.val := by
  have := b.isLt; have := o.isLt; have := i.isLt; omega
theorem unflat2 (b : Fin 32) (o i : Fin 128) : ((b.val * 128 + o.val) * 128 + i.val) / 128 % 128 = o.val := by
  have := b.isLt; have := o.isLt; have := i.isLt; omega
theorem unflat3 (b : Fin 32) (o i : Fin 128) : ((b.val * 128 + o.val) * 128 + i.val) % 128 = i.val := by
  have := b.isLt; have := o.isLt; have := i.isLt; omega

end Cert.ScatterBlock
-- ==== Proof.DenseWeight.lean ====
/-
  The reference's dense weight, read at an index.

  The reference starts from a [32, 32, 128, 128] array of zeros and scatters the six block rows `hw[d]` into it, one
  after the other: stage `d` writes block `b` of `hw[d]` at block position `(nbr b d, b)`, its index array's two columns
  being "iota xor the `d`-th mask" and "iota" (each passed through "add 32 if negative", which changes nothing on
  0..31). Each stage is the block scatter read at an index (`Cert.ScatterBlock.stage_apply`), so after the six stages
  block `(a, b)` is `Cert.Hypercube.dense hw a b`: the last stage that wrote it, or zero.
-/
import proofs.«133062_j58248346469061_2_alg».proof.Proof.Gen.ReferenceIdeal.Read
import proofs.«133062_j58248346469061_2_alg».proof.Proof.Hypercube
import proofs.«133062_j58248346469061_2_alg».proof.Proof.ScatterBlock

noncomputable section

namespace Cert.Hypercube.RefDense

open Cert.ReferenceIdeal Cert.ReferenceIdeal.Gen Cert.ReferenceIdeal.Read
open Idealize.ShloMosaic Idealize.ShloMosaic.ValueIdx Idealize.ShloMosaic.StableHlo
open Cert.Hypercube Cert.ScatterBlock

/-- A block is its own 0-th neighbour. -/
theorem nbr_zero : ∀ e : Fin 32, nbr e 0 = e := by decide

/-- "Add 32 if negative" leaves `e xor mask` alone: it is block `e`'s neighbour, in 0..31. -/
theorem wrap_xor : ∀ (d : Fin 6) (e : Fin 32),
    (Scalar.select (IntOp.cmpi .slt (IntOp.xori (BitVec.ofNat 32 e.val) (BitVec.ofNat 32 (mask d))) 0#32)
      (IntOp.addi (IntOp.xori (BitVec.ofNat 32 e.val) (BitVec.ofNat 32 (mask d))) 32#32)
      (IntOp.xori (BitVec.ofNat 32 e.val) (BitVec.ofNat 32 (mask d)))).toInt = ((nbr e d).val : Int) := by decide

/-- The array the first scatter starts from is zero everywhere. -/
theorem zeros_apply (j : S32x32x128x128.Idx) : val_main_v1 (F := Ideal) j = 0 := by
  rw [val_main_v1_apply, val_main_cst_apply]
  exact Ideal.ofBits_zero_f32

/-! ## The six updates: `hw[d]`, sliced out and reshaped to [32, 128, 128] -/

theorem hw_block0 (hw : (⟨S6x32x128x128, .f32⟩ : BufTy).Contents (Elt Ideal)) (b : Fin 32) (o i : Fin 128) :
    val_main_v3 (F := Ideal) hw (ix3 b o i) = hw (ix4 0 b o i) := by
  rw [val_main_v3_apply, val_main_v2_apply]
  congr 1
  funext a
  match a with
  | ⟨0, _⟩ => rfl
  | ⟨1, _⟩ => exact Fin.ext (unflat1 b o i)
  | ⟨2, _⟩ => exact Fin.ext (unflat2 b o i)
  | ⟨3, _⟩ => exact Fin.ext (unflat3 b o i)

theorem hw_block1 (hw : (⟨S6x32x128x128, .f32⟩ : BufTy).Contents (Elt Ideal)) (b : Fin 32) (o i : Fin 128) :
    val_main_v21 (F := Ideal) hw (ix3 b o i) = hw (ix4 1 b o i) := by
  rw [val_main_v21_apply, val_main_v20_apply]
  congr 1
  funext a
  match a with
  | ⟨0, _⟩ => rfl
  | ⟨1, _⟩ => exact Fin.ext (unflat1 b o i)
  | ⟨2, _⟩ => exact Fin.ext (unflat2 b o i)
  | ⟨3, _⟩ => exact Fin.ext (unflat3 b o i)

theorem hw_block2 (hw : (⟨S6x32x128x128, .f32⟩ : BufTy).Contents (Elt Ideal)) (b : Fin 32) (o i : Fin 128) :
    val_main_v39 (F := Ideal) hw (ix3 b o i) = hw (ix4 2 b o i) := by
  rw [val_main_v39_apply, val_main_v38_apply]
  congr 1
  funext a
  match a with
  | ⟨0, _⟩ => rfl
  | ⟨1, _⟩ => exact Fin.ext (unflat1 b o i)
  | ⟨2, _⟩ => exact Fin.ext (unflat2 b o i)
  | ⟨3, _⟩ => exact Fin.ext (unflat3 b o i)

theorem hw_block3 (hw : (⟨S6x32x128x128, .f32⟩ : BufTy).Contents (Elt Ideal)) (b : Fin 32) (o i : Fin 128) :
    val_main_v57 (F := Ideal) hw (ix3 b o i) = hw (ix4 3 b o i) := by
  rw [val_main_v57_apply, val_main_v56_apply]
  congr 1
  funext a
  match a with
  | ⟨0, _⟩ => rfl
  | ⟨1, _⟩ => exact Fin.ext (unflat1 b o i)
  | ⟨2, _⟩ => exact Fin.ext (unflat2 b o i)
  | ⟨3, _⟩ => exact Fin.ext (unflat3 b o i)

theorem hw_block4 (hw : (⟨S6x32x128x128, .f32⟩ : BufTy).Contents (Elt Ideal)) (b : Fin 32) (o i : Fin 128) :
    val_main_v75 (F := Ideal) hw (ix3 b o i) = hw (ix4 4 b o i) := by
  rw [val_main_v75_apply, val_main_v74_apply]
  congr 1
  funext a
  match a with
  | ⟨0, _⟩ => rfl
  | ⟨1, _⟩ => exact Fin.ext (unflat1 b o i)
  | ⟨2, _⟩ => exact Fin.ext (unflat2 b o i)
  | ⟨3, _⟩ => exact Fin.ext (unflat3 b o i)

theorem hw_block5 (hw : (⟨S6x32x128x128, .f32⟩ : BufTy).Contents (Elt Ideal)) (b : Fin 32) (o i : Fin 128) :
    val_main_v93 (F := Ideal) hw (ix3 b o i) = hw (ix4 5 b o i) := by
  rw [val_main_v93_apply, val_main_v92_apply]
  congr 1
  funext a
  match a with
  | ⟨0, _⟩ => rfl
  | ⟨1, _⟩ => exact Fin.ext (unflat1 b o i)
  | ⟨2, _⟩ => exact Fin.ext (unflat2 b o i)
  | ⟨3, _⟩ => exact Fin.ext (unflat3 b o i)

/-! ## The six stages -/

/-- Stage 0 writes block `b` of `hw[0]` at `(b, b)`, into zeros. -/
theorem stage0 (hw : (⟨S6x32x128x128, .f32⟩ : BufTy).Contents (Elt Ideal)) (a b : Fin 32) (o i : Fin 128) :
    val_main_v17 (F := Ideal) hw (ix4 a b o i)
      = if a = nbr b 0 then hw (ix4 0 b o i) else 0 := by
  unfold val_main_v17 val_main_v16
  refine (stage_apply concatenates_S32x1_S32x1_S32x2_d1 (val_main_v14 (F := Ideal)) (val_main_v15 (F := Ideal))
    scatter_S32x32x128x128_S32x2_S32x128x128_12_01_01_1_wf (val_main_v1 (F := Ideal)) (val_main_v3 (F := Ideal) hw)
    (fun e => nbr e 0) ?_ ?_ a b o i).trans ?_
  · intro e
    simp only [val_main_v14_apply, val_main_v8_apply, val_main_v5_apply, val_main_v7_apply, val_main_v0_apply,
      val_main_v4_apply, val_main_v6_apply, val_main_c_apply, val_main_c_0_apply]
    rw [nbr_zero]
    exact wrap_iota e
  · intro e
    simp only [val_main_v15_apply, val_main_v13_apply, val_main_v10_apply, val_main_v12_apply, val_main_v0_apply,
      val_main_v9_apply, val_main_v11_apply, val_main_c_1_apply, val_main_c_2_apply]
    exact wrap_iota e
  · rw [hw_block0, zeros_apply]

/-- Stage 1 writes block `b` of `hw[1]` at `(nbr b 1, b)`, over the stage before. -/
theorem stage1 (hw : (⟨S6x32x128x128, .f32⟩ : BufTy).Contents (Elt Ideal)) (a b : Fin 32) (o i : Fin 128) :
    val_main_v35 (F := Ideal) hw (ix4 a b o i)
      = if a = nbr b 1 then hw (ix4 1 b o i) else val_main_v17 (F := Ideal) hw (ix4 a b o i) := by
  unfold val_main_v35 val_main_v34
  refine (stage_apply concatenates_S32x1_S32x1_S32x2_d1 (val_main_v32 (F := Ideal)) (val_main_v33 (F := Ideal))
    scatter_S32x32x128x128_S32x2_S32x128x128_12_01_01_1_wf (val_main_v17 (F := Ideal) hw) (val_main_v21 (F := Ideal) hw)
    (fun e => nbr e 1) ?_ ?_ a b o i).trans ?_
  · intro e
    simp only [val_main_v32_apply, val_main_v26_apply, val_main_v23_apply, val_main_v25_apply, val_main_v19_apply, val_main_v0_apply,
      val_main_v18_apply, val_main_v22_apply, val_main_v24_apply, val_main_c_3_apply, val_main_c_4_apply, val_main_c_5_apply]
    exact wrap_xor 1 e
  · intro e
    simp only [val_main_v33_apply, val_main_v31_apply, val_main_v28_apply, val_main_v30_apply, val_main_v0_apply,
      val_main_v27_apply, val_main_v29_apply, val_main_c_6_apply, val_main_c_7_apply]
    exact wrap_iota e
  · rw [hw_block1]

/-- Stage 2 writes block `b` of `hw[2]` at `(nbr b 2, b)`, over the stage before. -/
theorem stage2 (hw : (⟨S6x32x128x128, .f32⟩ : BufTy).Contents (Elt Ideal)) (a b : Fin 32) (o i : Fin 128) :
    val_main_v53 (F := Ideal) hw (ix4 a b o i)
      = if a = nbr b 2 then hw (ix4 2 b o i) else val_main_v35 (F := Ideal) hw (ix4 a b o i) := by
  unfold val_main_v53 val_main_v52
  refine (stage_apply concatenates_S32x1_S32x1_S32x2_d1 (val_main_v50 (F := Ideal)) (val_main_v51 (F := Ideal))
    scatter_S32x32x128x128_S32x2_S32x128x128_12_01_01_1_wf (val_main_v35 (F := Ideal) hw) (val_main_v39 (F := Ideal) hw)
    (fun e => nbr e 2) ?_ ?_ a b o i).trans ?_
  · intro e
    simp only [val_main_v50_apply, val_main_v44_apply, val_main_v41_apply, val_main_v43_apply, val_main_v37_apply, val_main_v0_apply,
      val_main_v36_apply, val_main_v40_apply, val_main_v42_apply, val_main_c_8_apply, val_main_c_9_apply, val_main_c_10_apply]
    exact wrap_xor 2 e
  · intro e
    simp only [val_main_v51_apply, val_main_v49_apply, val_main_v46_apply, val_main_v48_apply, val_main_v0_apply,
      val_main_v45_apply, val_main_v47_apply, val_main_c_11_apply, val_main_c_12_apply]
    exact wrap_iota e
  · rw [hw_block2]

/-- Stage 3 writes block `b` of `hw[3]` at `(nbr b 3, b)`, over the stage before. -/
theorem stage3 (hw : (⟨S6x32x128x128, .f32⟩ : BufTy).Contents (Elt Ideal)) (a b : Fin 32) (o i : Fin 128) :
    val_main_v71 (F := Ideal) hw (ix4 a b o i)
      = if a = nbr b 3 then hw (ix4 3 b o i) else val_main_v53 (F := Ideal) hw (ix4 a b o i) := by
  unfold val_main_v71 val_main_v70
  refine (stage_apply concatenates_S32x1_S32x1_S32x2_d1 (val_main_v68 (F := Ideal)) (val_main_v69 (F := Ideal))
    scatter_S32x32x128x128_S32x2_S32x128x128_12_01_01_1_wf (val_main_v53 (F := Ideal) hw) (val_main_v57 (F := Ideal) hw)
    (fun e => nbr e 3) ?_ ?_ a b o i).trans ?_
  · intro e
    simp only [val_main_v68_apply, val_main_v62_apply, val_main_v59_apply, val_main_v61_apply, val_main_v55_apply, val_main_v0_apply,
      val_main_v54_apply, val_main_v58_apply, val_main_v60_apply, val_main_c_13_apply, val_main_c_14_apply, val_main_c_15_apply]
    exact wrap_xor 3 e
  · intro e
    simp only [val_main_v69_apply, val_main_v67_apply, val_main_v64_apply, val_main_v66_apply, val_main_v0_apply,
      val_main_v63_apply, val_main_v65_apply, val_main_c_16_apply, val_main_c_17_apply]
    exact wrap_iota e
  · rw [hw_block3]

/-- Stage 4 writes block `b` of `hw[4]` at `(nbr b 4, b)`, over the stage before. -/
theorem stage4 (hw : (⟨S6x32x128x128, .f32⟩ : BufTy).Contents (Elt Ideal)) (a b : Fin 32) (o i : Fin 128) :
    val_main_v89 (F := Ideal) hw (ix4 a b o i)
      = if a = nbr b 4 then hw (ix4 4 b o i) else val_main_v71 (F := Ideal) hw (ix4 a b o i) := by
  unfold val_main_v89 val_main_v88
  refine (stage_apply concatenates_S32x1_S32x1_S32x2_d1 (val_main_v86 (F := Ideal)) (val_main_v87 (F := Ideal))
    scatter_S32x32x128x128_S32x2_S32x128x128_12_01_01_1_wf (val_main_v71 (F := Ideal) hw) (val_main_v75 (F := Ideal) hw)
    (fun e => nbr e 4) ?_ ?_ a b o i).trans ?_
  · intro e
    simp only [val_main_v86_apply, val_main_v80_apply, val_main_v77_apply, val_main_v79_apply, val_main_v73_apply, val_main_v0_apply,
      val_main_v72_apply, val_main_v76_apply, val_main_v78_apply, val_main_c_18_apply, val_main_c_19_apply, val_main_c_20_apply]
    exact wrap_xor 4 e
  · intro e
    simp only [val_main_v87_apply, val_main_v85_apply, val_main_v82_apply, val_main_v84_apply, val_main_v0_apply,
      val_main_v81_apply, val_main_v83_apply, val_main_c_21_apply, val_main_c_22_apply]
    exact wrap_iota e
  · rw [hw_block4]

/-- Stage 5 writes block `b` of `hw[5]` at `(nbr b 5, b)`, over the stage before. -/
theorem stage5 (hw : (⟨S6x32x128x128, .f32⟩ : BufTy).Contents (Elt Ideal)) (a b : Fin 32) (o i : Fin 128) :
    val_main_v107 (F := Ideal) hw (ix4 a b o i)
      = if a = nbr b 5 then hw (ix4 5 b o i) else val_main_v89 (F := Ideal) hw (ix4 a b o i) := by
  unfold val_main_v107 val_main_v106
  refine (stage_apply concatenates_S32x1_S32x1_S32x2_d1 (val_main_v104 (F := Ideal)) (val_main_v105 (F := Ideal))
    scatter_S32x32x128x128_S32x2_S32x128x128_12_01_01_1_wf (val_main_v89 (F := Ideal) hw) (val_main_v93 (F := Ideal) hw)
    (fun e => nbr e 5) ?_ ?_ a b o i).trans ?_
  · intro e
    simp only [val_main_v104_apply, val_main_v98_apply, val_main_v95_apply, val_main_v97_apply, val_main_v91_apply, val_main_v0_apply,
      val_main_v90_apply, val_main_v94_apply, val_main_v96_apply, val_main_c_23_apply, val_main_c_24_apply, val_main_c_25_apply]
    exact wrap_xor 5 e
  · intro e
    simp only [val_main_v105_apply, val_main_v103_apply, val_main_v100_apply, val_main_v102_apply, val_main_v0_apply,
      val_main_v99_apply, val_main_v101_apply, val_main_c_26_apply, val_main_c_27_apply]
    exact wrap_iota e
  · rw [hw_block5]

/-- THE DENSE WEIGHT: after the six scatters, block `(a, b)` of the reference's weight is `dense hw a b`. -/
theorem val_main_v107_apply (hw : (⟨S6x32x128x128, .f32⟩ : BufTy).Contents (Elt Ideal)) (a b : Fin 32) (o i : Fin 128) :
    val_main_v107 (F := Ideal) hw (ix4 a b o i) = dense hw a b o i := by
  unfold dense
  rw [stage5, stage4, stage3, stage2, stage1, stage0]

end Cert.Hypercube.RefDense

end
-- ==== Proof.RefLayer.lean ====
/-
  The reference program is the hypercube layer.

  After the six scatters the reference transposes the dense weight `w[a, b, o, i]` to `[a, o, b, i]`, flattens it to a
  4096 × 4096 matrix `W[c, k]` (`c = 128 a + o`, `k = 128 b + i`), transposes that, multiplies `x` by it and adds the bias:
  `out[r, c] = ∑ k, x[r, k] · W[c, k] + bias[c]`. With `W[c, k] = dense hw (blockOf c) (blockOf k) (within c) (within k)`
  the sum over `k`, taken block by block, is the six neighbour terms of `Cert.Hypercube.G`.
-/
import proofs.«133062_j58248346469061_2_alg».proof.Proof.Gen.ReferenceIdeal.Read
import proofs.«133062_j58248346469061_2_alg».proof.Proof.Hypercube
import proofs.«133062_j58248346469061_2_alg».proof.Proof.BlockSum
import proofs.«133062_j58248346469061_2_alg».proof.Proof.DenseWeight

noncomputable section

namespace Cert.Hypercube.RefSide

open Cert.ReferenceIdeal Cert.ReferenceIdeal.Gen Cert.ReferenceIdeal.Read
open Idealize.ShloMosaic Idealize.ShloMosaic.ValueIdx Idealize.ShloMosaic.StableHlo
open Cert.Hypercube
open scoped BigOperators

/-- Feature `i` of block `b` lies in block `b` … -/
theorem blockOf_col (b : Fin 32) (i : Fin 128) : blockOf (col b i) = b :=
  Fin.ext (by show (b.val * 128 + i.val) / 128 = b.val; have := i.isLt; omega)

/-- … at place `i`. -/
theorem within_col (b : Fin 32) (i : Fin 128) : within (col b i) = i :=
  Fin.ext (by show (b.val * 128 + i.val) % 128 = i.val; have := i.isLt; omega)

/-- The matrix the reference multiplies by, at row `k` (the contracted feature) and column `c` (the output feature): the
    dense weight's block (`blockOf c`, `blockOf k`) at (`within c`, `within k`). -/
theorem weight_apply (hw : (⟨S6x32x128x128, .f32⟩ : BufTy).Contents (Elt Ideal)) (k c : Fin 4096) :
    val_main_v110 (F := Ideal) hw (ix2 k c) = dense hw (blockOf c) (blockOf k) (within c) (within k) := by
  rw [val_main_v110_apply, val_main_v109_apply, val_main_v108_apply, ← RefDense.val_main_v107_apply]
  congr 1
  funext a
  have hc := c.isLt
  have hk := k.isLt
  match a with
  | ⟨0, _⟩ => exact Fin.ext (by show (c.val * 4096 + k.val) / 524288 = c.val / 128; omega)
  | ⟨1, _⟩ => exact Fin.ext (by show (c.val * 4096 + k.val) / 128 % 32 = k.val / 128; omega)
  | ⟨2, _⟩ => exact Fin.ext (by show (c.val * 4096 + k.val) / 4096 % 128 = c.val % 128; omega)
  | ⟨3, _⟩ => exact Fin.ext (by show (c.val * 4096 + k.val) % 128 = k.val % 128; omega)

/-- THE REFERENCE IS THE LAYER: `x` times the transposed dense weight, plus the bias, is `G x hw bias`. -/
theorem ref_eq_G (x : (⟨S4096x4096, .f32⟩ : BufTy).Contents (Elt Ideal))
    (hw : (⟨S6x32x128x128, .f32⟩ : BufTy).Contents (Elt Ideal)) (bias : (⟨S4096, .f32⟩ : BufTy).Contents (Elt Ideal)) :
    val_main_v114 (F := Ideal) x hw bias = G x hw bias := by
  funext j
  obtain ⟨r, c, rfl⟩ : ∃ r c, j = ix2 r c := ⟨j 0, j 1, eq_ix2 j⟩
  have hl : ∀ k : Fin 4096, lidx_main_v111 (ix2 r c) k = ix2 r k := fun k => by
    funext a; match a with | ⟨0, _⟩ => rfl | ⟨1, _⟩ => rfl
  have hr : ∀ k : Fin 4096, ridx_main_v111 (ix2 r c) k = ix2 k c := fun k => by
    funext a; match a with | ⟨0, _⟩ => rfl | ⟨1, _⟩ => rfl
  have hb : idx_main_v112 (idx_main_v113 (ix2 r c)) = ix1 c := by
    funext a; match a with | ⟨0, _⟩ => rfl
  rw [val_main_v114_apply, val_main_v111_apply, val_main_v113_apply, val_main_v112_apply, Ideal.addf_def, hb]
  simp only [hl, hr, weight_apply]
  rw [sum_cols]
  simp only [blockOf_col, within_col]
  rw [dense_row_sum]
  rfl

end Cert.Hypercube.RefSide

end
-- ==== Proof.lean ====
/-
  A hypercube-sparse linear layer: the kernel and its dense reference compute the same array on the extended reals.

  Inputs: `x` [4096, 4096], the sparse weight `hw` [6, 32, 128, 128] and `bias` [4096]. The features are cut into 32 blocks of 128;
  output block `j` listens to input blocks `j xor 0, 1, 2, 4, 8, 16` only, and `hw[d, n]` is the 128 × 128 block that carries input
  block `n` into its `d`-th neighbour. The layer (Proof/Hypercube.lean, `G`) is

      out[r, 128 j + q] = Σ_{d < 6} Σ_{k < 128} x[r, 128 (j xor mask d) + k] · hw[d, j xor mask d, q, k]  +  bias[128 j + q].

  The kernel walks 16 row tiles of 256 rows; for each of the 32 column blocks of a tile it adds six 256×128 by 128×128 products onto
  a zero tile and adds the bias row. At the exact values the narrowing of the operands is the identity and a product into a zero
  accumulator is a plain sum, so each stored block is the formula above on its columns (Proof/BodyProduct.lean, BodyBlock.lean), the
  32 stores fill the tile (KernelTile.lean) and the 16 tiles fill the array (KernelArray.lean).

  The reference scatters the six families of blocks into a dense 32 × 32 block matrix — six overwrites at the positions
  (`b xor mask d`, `b`), which never collide (LibScatterSet.lean, ScatterBlock.lean, DenseWeight.lean) —, lays it out as a 4096 × 4096
  matrix and multiplies. A row of that product is a sum over all 4096 input features; block by block, every block that is not one of
  the six neighbours contributes zeros only (a product with zero is zero on the extended reals as well), and the six neighbours are six
  different blocks, so the sum is the six inner sums of the formula (BlockSum.lean, RefLayer.lean). Only commutativity and
  associativity of the sum and `x · 0 = 0` are used: the finiteness of the inputs is never needed.

  The three frames are the generated runs; the idealization rewrote nothing, so it is preserved trivially.
-/
import proofs.«133062_j58248346469061_2_alg».proof.Defs
import proofs.«133062_j58248346469061_2_alg».proof.Proof.Gen.Kernel
import proofs.«133062_j58248346469061_2_alg».proof.Proof.Gen.Kernel.Skeleton
import proofs.«133062_j58248346469061_2_alg».proof.Proof.Gen.Kernel.Launch
import proofs.«133062_j58248346469061_2_alg».proof.Proof.Gen.Kernel.Points
import proofs.«133062_j58248346469061_2_alg».proof.Proof.Gen.Kernel.Frame
import proofs.«133062_j58248346469061_2_alg».proof.Proof.Gen.KernelIdeal
import proofs.«133062_j58248346469061_2_alg».proof.Proof.Gen.KernelIdeal.Skeleton
import proofs.«133062_j58248346469061_2_alg».proof.Proof.Gen.KernelIdeal.Launch
import proofs.«133062_j58248346469061_2_alg».proof.Proof.Gen.KernelIdeal.Points
import proofs.«133062_j58248346469061_2_alg».proof.Proof.Gen.KernelIdeal.Frame
import proofs.«133062_j58248346469061_2_alg».proof.Proof.Gen.ReferenceIdeal
import proofs.«133062_j58248346469061_2_alg».proof.Proof.Gen.Pre_finite_inputs
import proofs.«133062_j58248346469061_2_alg».proof.Proof.Gen.KernelIdeal.Value
import proofs.«133062_j58248346469061_2_alg».proof.Proof.Gen.ReferenceIdeal.Run
import proofs.«133062_j58248346469061_2_alg».proof.Proof.Gen.ReferenceIdeal.Read
import proofs.«133062_j58248346469061_2_alg».proof.Proof.KernelArray
import proofs.«133062_j58248346469061_2_alg».proof.Proof.RefLayer
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference's run, with its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the layer `G` of the (agreeing) arguments. -/
theorem algebraic : Cert.algebraic_KernelIdeal_ReferenceIdeal := by
  intro m ρ m' ρ' _ hagree
  refine ⟨fun c => Cert.Hypercube.G (Cert.Hypercube.KernelSide.argX m c) (Cert.Hypercube.KernelSide.argW m c)
    (Cert.Hypercube.KernelSide.argB m c), Cert.Hypercube.KernelSide.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v114_eq, Cert.Hypercube.RefSide.ref_eq_G, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
